-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x5 : Shape := ⟨2, ![500000, 5]⟩
abbrev S2x16000000 : Shape := ⟨2, ![2, 16000000]⟩
abbrev S16000000 : Shape := ⟨1, ![16000000]⟩
abbrev S5x5 : Shape := ⟨2, ![5, 5]⟩
abbrev S5 : Shape := ⟨1, ![5]⟩
abbrev S_ : Shape := ⟨0, ![]⟩

class Facts : Prop where
  bcast_S_S500000x5 : S_.BroadcastsInDim S500000x5 (![] : Fin 0 → Fin S500000x5.rank)
  reducesTo_S500000x5_S_d0_1 : S500000x5.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S5 .f32) (main_arg13 : FVec F S5x5 .f32) (main_arg14 : FVec F S5 .f32) (main_v48 : IVec S_ 1) (main_v49 : FVec F S5x5 .f32) (main_v50 : FVec F S5x5 .f32) : IVec S_ 1 :=
  let main_v51 : IVec S5x5 1 := cmpf .olt main_v49 main_v50
  let main_c_19 : IVec S_ 1 := constantI S_ 1 1#1
  let main_v52 : IVec S_ 1 := (fun x v => Host.reduce IntOp.andi x v reducesTo_S5x5_S_d0_1 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S5x5 .f32 := Host.absf main_arg13
  let main_cst_22 : FVec F S_ .f32 := constant S_ .f32 0x7F800000#32
  let main_v60 : FVec F S5x5 .f32 := broadcastInDim S5x5 ![] bcast_S_S5x5 main_cst_22
  let main_v61 : IVec S5x5 1 := cmpf .olt main_v59 main_v60
  let main_c_23 : IVec S_ 1 := constantI S_ 1 1#1
  let main_v62 : IVec S_ 1 := (fun x v => Host.reduce IntOp.andi x v reducesTo_S5x5_S_d0_1 h_S_) main_v61 main_c_23
  let main_v63 : IVec S_ 1 := andi main_v58 main_v62
  let main_v64 : FVec F S5 .f32 := Host.absf main_arg14
  let main_cst_24 : FVec F S_ .f32 := constant S_ .f32 0x7F800000#32
  let main_v65 : FVec F S5 .f32 := broadcastInDim S5 ![] bcast_S_S5 main_cst_24
  let main_v66 : IVec S5 1 := cmpf .olt main_v64 main_v65
  let main_c_25 : IVec S_ 1 := constantI S_ 1 1#1
  let main_v67 : IVec S_ 1 := (fun x v => Host.reduce IntOp.andi x v reducesTo_S5_S_d0 h_S_) main_v66 main_c_25
  fn_part4 (F := F) main_v63 main_v67

def fn_part2 {F : FTy → Type} [FloatOps F] (main_arg8 : FVec F S5 .f32) (main_arg9 : FVec F S5x5 .f32) (main_arg10 : FVec F S5 .f32) (main_arg11 : FVec F S5x5 .f32) (main_arg12 : FVec F S5 .f32) (main_arg13 : FVec F S5x5 .f32) (main_arg14 : FVec F S5 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S5x5 .f32 := Host.absf main_arg9
  let main_cst_14 : FVec F S_ .f32 := constant S_ .f32 0x7F800000#32
  let main_v40 : FVec F S5x5 .f32 := broadcastInDim S5x5 ![] bcast_S_S5x5 main_cst_14
  let main_v41 : IVec S5x5 1 := cmpf .olt main_v39 main_v40
  let main_c_15 : IVec S_ 1 := constantI S_ 1 1#1
  let main_v42 : IVec S_ 1 := (fun x v => Host.reduce IntOp.andi x v reducesTo_S5x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S5x5 .f32 := Host.absf main_arg11
  let main_cst_18 : FVec F S_ .f32 := constant S_ .f32 0x7F800000#32
  let main_v50 : FVec F S5x5 .f32 := broadcastInDim S5x5 ![] bcast_S_S5x5 main_cst_18
  fn_part3 (F := F) main_arg12 main_arg13 main_arg14 main_v48 main_v49 main_v50

def fn_part1 {F : FTy → Type} [FloatOps F] (main_arg5 : FVec F S5x5 .f32) (main_arg6 : FVec F S5 .f32) (main_arg7 : FVec F S5x5 .f32) (main_arg8 : FVec F S5 .f32) (main_arg9 : FVec F S5x5 .f32) (main_arg10 : FVec F S5 .f32) (main_arg11 : FVec F S5x5 .f32) (main_arg12 : FVec F S5 .f32) (main_arg13 : FVec F S5x5 .f32) (main_arg14 : FVec F S5 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x5 .f32 := Host.absf main_arg5
  let main_cst_6 : FVec F S_ .f32 := constant S_ .f32 0x7F800000#32
  let main_v20 : FVec F S5x5 .f32 := broadcastInDim S5x5 ![] bcast_S_S5x5 main_cst_6
  let main_v21 : IVec S5x5 1 := cmpf .olt main_v19 main_v20
  let main_c_7 : IVec S_ 1 := constantI S_ 1 1#1
  let main_v22 : IVec S_ 1 := (fun x v => Host.reduce IntOp.andi x v reducesTo_S5x5_S_d0_1 h_S_) main_v21 main_c_7
  let main_v23 : IVec S_ 1 := andi main_v18 main_v22
  let main_v24 : FVec F S5 .f32 := Host.absf main_arg6
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S5x5 .f32 := Host.absf main_arg7
  let main_cst_10 : FVec F S_ .f32 := constant S_ .f32 0x7F800000#32
  let main_v30 : FVec F S5x5 .f32 := broadcastInDim S5x5 ![] bcast_S_S5x5 main_cst_10
  let main_v31 : IVec S5x5 1 := cmpf .olt main_v29 main_v30
  let main_c_11 : IVec S_ 1 := constantI S_ 1 1#1
  let main_v32 : IVec S_ 1 := (fun x v => Host.reduce IntOp.andi x v reducesTo_S5x5_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S500000x5 .f32) (main_arg1 : IVec S2x16000000 32) (main_arg2 : FVec F S16000000 .f32) (main_arg3 : FVec F S5x5 .f32) (main_arg4 : FVec F S5 .f32) (main_arg5 : FVec F S5x5 .f32) (main_arg6 : FVec F S5 .f32) (main_arg7 : FVec F S5x5 .f32) (main_arg8 : FVec F S5 .f32) (main_arg9 : FVec F S5x5 .f32) (main_arg10 : FVec F S5 .f32) (main_arg11 : FVec F S5x5 .f32) (main_arg12 : FVec F S5 .f32) (main_arg13 : FVec F S5x5 .f32) (main_arg14 : FVec F S5 .f32) : IVec S_ 1 :=
  let main_v0 : FVec F S500000x5 .f32 := Host.absf main_arg0
  let main_cst : FVec F S_ .f32 := constant S_ .f32 0x7F800000#32
  let main_v1 : FVec F S500000x5 .f32 := broadcastInDim S500000x5 ![] bcast_S_S500000x5 main_cst
  let main_v2 : IVec S500000x5 1 := cmpf .olt main_v0 main_v1
  let main_c : IVec S_ 1 := constantI S_ 1 1#1
  let main_v3 : IVec S_ 1 := (fun x v => Host.reduce IntOp.andi x v reducesTo_S500000x5_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S5x5 .f32 := Host.absf main_arg3
  let main_cst_2 : FVec F S_ .f32 := constant S_ .f32 0x7F800000#32
  let main_v10 : FVec F S5x5 .f32 := broadcastInDim S5x5 ![] bcast_S_S5x5 main_cst_2
  let main_v11 : IVec S5x5 1 := cmpf .olt main_v9 main_v10
  let main_c_3 : IVec S_ 1 := constantI S_ 1 1#1
  let main_v12 : IVec S_ 1 := (fun x v => Host.reduce IntOp.andi x v reducesTo_S5x5_S_d0_1 h_S_) main_v11 main_c_3
  let main_v13 : IVec S_ 1 := andi main_v8 main_v12
  let main_v14 : FVec F S5 .f32 := Host.absf main_arg4
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg5 main_arg6 main_arg7 main_arg8 main_arg9 main_arg10 main_arg11 main_arg12 main_arg13 main_arg14 main_v13 main_v16
-- ==== Kernel.lean ====
abbrev S500000x5 : Shape := ⟨2, ![500000, 5]⟩
abbrev S2x16000000 : Shape := ⟨2, ![2, 16000000]⟩
abbrev S16000000 : Shape := ⟨1, ![16000000]⟩
abbrev S5x5 : Shape := ⟨2, ![5, 5]⟩
abbrev S5 : Shape := ⟨1, ![5]⟩
abbrev S1x16000000 : Shape := ⟨2, ![1, 16000000]⟩
abbrev S_ : Shape := ⟨0, ![]⟩
abbrev S500000 : Shape := ⟨1, ![500000]⟩
abbrev S16000000x1 : Shape := ⟨2, ![16000000, 1]⟩
abbrev S500000x1 : Shape := ⟨2, ![500000, 1]⟩
abbrev S1x5 : Shape := ⟨2, ![1, 5]⟩
abbrev S5000x5 : Shape := ⟨2, ![5000, 5]⟩
abbrev S16000000x5 : Shape := ⟨2, ![16000000, 5]⟩
abbrev S5000x1 : Shape := ⟨2, ![5000, 1]⟩

abbrev nBuf : Space → Nat
  | .hbm => 90
  | .vmem => 34
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S16000000, .f32⟩
  | .hbm, ⟨3, _⟩ => ⟨S5x5, .f32⟩
  | .hbm, ⟨4, _⟩ => ⟨S5, .f32⟩
  | .hbm, ⟨5, _⟩ => ⟨S5x5, .f32⟩
  | .hbm, ⟨6, _⟩ => ⟨S5, .f32⟩
  | .hbm, ⟨7, _⟩ => ⟨S5x5, .f32⟩
  | .hbm, ⟨8, _⟩ => ⟨S5, .f32⟩
  | .hbm, ⟨9, _⟩ => ⟨S5x5, .f32⟩
  | .hbm, ⟨10, _⟩ => ⟨S5, .f32⟩
  | .hbm, ⟨11, _⟩ => ⟨S5x5, .f32⟩
  | .hbm, ⟨12, _⟩ => ⟨S5, .f32⟩
  | .hbm, ⟨13, _⟩ => ⟨S5x5, .f32⟩
  | .hbm, ⟨14, _⟩ => ⟨S5, .f32⟩
  | .hbm, ⟨15, _⟩ => ⟨S1x16000000, .i32⟩
  | .hbm, ⟨16, _⟩ => ⟨S16000000, .i32⟩
  | .hbm, ⟨17, _⟩ => ⟨S1x16000000, .i32⟩
  | .hbm, ⟨18, _⟩ => ⟨S16000000, .i32⟩
  | .hbm, ⟨19, _⟩ => ⟨S_, .f32⟩
  | .hbm, ⟨20, _⟩ => ⟨S16000000, .f32⟩
  | .hbm, ⟨21, _⟩ => ⟨S_, .f32⟩
  | .hbm, ⟨22, _⟩ => ⟨S500000, .f32⟩
  | .hbm, ⟨23, _⟩ => ⟨S16000000x1, .i32⟩
  | .hbm, ⟨24, _⟩ => ⟨S500000, .f32⟩
  | .hbm, ⟨25, _⟩ => ⟨S_, .f32⟩
  | .hbm, ⟨26, _⟩ => ⟨S500000, .f32⟩
  | .hbm, ⟨27, _⟩ => ⟨S500000, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S500000x1, .f32⟩
  | .hbm, ⟨32, _⟩ => ⟨S1x5, .f32⟩
  | .hbm, ⟨33, _⟩ => ⟨S1x5, .f32⟩
  | .hbm, ⟨34, _⟩ => ⟨S1x5, .f32⟩
  | .hbm, ⟨35, _⟩ => ⟨S1x5, .f32⟩
  | .hbm, ⟨36, _⟩ => ⟨S1x5, .f32⟩
  | .hbm, ⟨37, _⟩ => ⟨S1x5, .f32⟩
  | .hbm, ⟨38, _⟩ => ⟨S500000x5, .f32⟩
  | .hbm, ⟨39, _⟩ => ⟨S_, .i32⟩
  | .hbm, ⟨40, _⟩ => ⟨S16000000, .i32⟩
  | .hbm, ⟨41, _⟩ => ⟨S16000000, .i1⟩
  | .hbm, ⟨42, _⟩ => ⟨S_, .i32⟩
  | .hbm, ⟨43, _⟩ => ⟨S16000000, .i32⟩
  | .hbm, ⟨44, _⟩ => ⟨S16000000, .i32⟩
  | .hbm, ⟨45, _⟩ => ⟨S16000000, .i32⟩
  | .hbm, ⟨46, _⟩ => ⟨S16000000x1, .i32⟩
  | .hbm, ⟨47, _⟩ => ⟨S16000000x5, .f32⟩
  | .hbm, ⟨48, _⟩ => ⟨S16000000x1, .f32⟩
  | .hbm, ⟨49, _⟩ => ⟨S16000000x5, .f32⟩
  | .hbm, ⟨50, _⟩ => ⟨S16000000x5, .f32⟩
  | .hbm, ⟨51, _⟩ => ⟨S_, .f32⟩
  | .hbm, ⟨52, _⟩ => ⟨S500000x5, .f32⟩
  | .hbm, ⟨53, _⟩ => ⟨S16000000x1, .i32⟩
  | .hbm, ⟨54, _⟩ => ⟨S500000x5, .f32⟩
  | .hbm, ⟨55, _⟩ => ⟨S500000x5, .f32⟩
  | .hbm, ⟨56, _⟩ => ⟨S_, .i32⟩
  | .hbm, ⟨57, _⟩ => ⟨S16000000, .i32⟩
  | .hbm, ⟨58, _⟩ => ⟨S16000000, .i1⟩
  | .hbm, ⟨59, _⟩ => ⟨S_, .i32⟩
  | .hbm, ⟨60, _⟩ => ⟨S16000000, .i32⟩
  | .hbm, ⟨61, _⟩ => ⟨S16000000, .i32⟩
  | .hbm, ⟨62, _⟩ => ⟨S16000000, .i32⟩
  | .hbm, ⟨63, _⟩ => ⟨S16000000x1, .i32⟩
  | .hbm, ⟨64, _⟩ => ⟨S16000000x5, .f32⟩
  | .hbm, ⟨65, _⟩ => ⟨S16000000x1, .f32⟩
  | .hbm, ⟨66, _⟩ => ⟨S16000000x5, .f32⟩
  | .hbm, ⟨67, _⟩ => ⟨S16000000x5, .f32⟩
  | .hbm, ⟨68, _⟩ => ⟨S_, .f32⟩
  | .hbm, ⟨69, _⟩ => ⟨S500000x5, .f32⟩
  | .hbm, ⟨70, _⟩ => ⟨S16000000x1, .i32⟩
  | .hbm, ⟨71, _⟩ => ⟨S500000x5, .f32⟩
  | .hbm, ⟨72, _⟩ => ⟨S500000x5, .f32⟩
  | .hbm, ⟨73, _⟩ => ⟨S_, .i32⟩
  | .hbm, ⟨74, _⟩ => ⟨S16000000, .i32⟩
  | .hbm, ⟨75, _⟩ => ⟨S16000000, .i1⟩
  | .hbm, ⟨76, _⟩ => ⟨S_, .i32⟩
  | .hbm, ⟨77, _⟩ => ⟨S16000000, .i32⟩
  | .hbm, ⟨78, _⟩ => ⟨S16000000, .i32⟩
  | .hbm, ⟨79, _⟩ => ⟨S16000000, .i32⟩
  | .hbm, ⟨80, _⟩ => ⟨S16000000x1, .i32⟩
  | .hbm, ⟨81, _⟩ => ⟨S16000000x5, .f32⟩
  | .hbm, ⟨82, _⟩ => ⟨S16000000x1, .f32⟩
  | .hbm, ⟨83, _⟩ => ⟨S16000000x5, .f32⟩
  | .hbm, ⟨84, _⟩ => ⟨S16000000x5, .f32⟩
  | .hbm, ⟨85, _⟩ => ⟨S_, .f32⟩
  | .hbm, ⟨86, _⟩ => ⟨S500000x5, .f32⟩
  | .hbm, ⟨87, _⟩ => ⟨S16000000x1, .i32⟩
  | .hbm, ⟨88, _⟩ => ⟨S500000x5, .f32⟩
  | .hbm, ⟨89, _⟩ => ⟨S500000x5, .f32⟩
  | .local _ .vmem, ⟨0, _⟩ => ⟨S5000x5, .f32⟩
  | .local _ .vmem, ⟨1, _⟩ => ⟨S5000x5, .f32⟩
  | .local _ .vmem, ⟨2, _⟩ => ⟨S5x5, .f32⟩
  | .local _ .vmem, ⟨3, _⟩ => ⟨S5000x5, .f32⟩
  | .local _ .vmem, ⟨4, _⟩ => ⟨S5000x5, .f32⟩
  | .local _ .vmem, ⟨5, _⟩ => ⟨S5000x5, .f32⟩
  | .local _ .vmem, ⟨6, _⟩ => ⟨S5000x5, .f32⟩
  | .local _ .vmem, ⟨7, _⟩ => ⟨S5000x1, .f32⟩
  | .local _ .vmem, ⟨8, _⟩ => ⟨S5000x1, .f32⟩
  | .local _ .vmem, ⟨9, _⟩ => ⟨S1x5, .f32⟩
  | .local _ .vmem, ⟨10, _⟩ => ⟨S5x5, .f32⟩
  | .local _ .vmem, ⟨11, _⟩ => ⟨S5000x5, .f32⟩
  | .local _ .vmem, ⟨12, _⟩ => ⟨S5000x5, .f32⟩
  | .local _ .vmem, ⟨13, _⟩ => ⟨S5000x5, .f32⟩
  | .local _ .vmem, ⟨14, _⟩ => ⟨S5000x5, .f32⟩
  | .local _ .vmem, ⟨15, _⟩ => ⟨S5000x1, .f32⟩
  | .local _ .vmem, ⟨16, _⟩ => ⟨S5000x1, .f32⟩
  | .local _ .vmem, ⟨17, _⟩ => ⟨S1x5, .f32⟩
  | .local _ .vmem, ⟨18, _⟩ => ⟨S5x5, .f32⟩
  | .local _ .vmem, ⟨19, _⟩ => ⟨S5000x5, .f32⟩
  | .local _ .vmem, ⟨20, _⟩ => ⟨S5000x5, .f32⟩
  | .local _ .vmem, ⟨21, _⟩ => ⟨S5000x5, .f32⟩
  | .local _ .vmem, ⟨22, _⟩ => ⟨S5000x5, .f32⟩
  | .local _ .vmem, ⟨23, _⟩ => ⟨S5000x1, .f32⟩
  | .local _ .vmem, ⟨24, _⟩ => ⟨S5000x1, .f32⟩
  | .local _ .vmem, ⟨25, _⟩ => ⟨S1x5, .f32⟩
  | .local _ .vmem, ⟨26, _⟩ => ⟨S5x5, .f32⟩
  | .local _ .vmem, ⟨27, _⟩ => ⟨S1x5, .f32⟩
  | .local _ .vmem, ⟨28, _⟩ => ⟨S5x5, .f32⟩
  | .local _ .vmem, ⟨29, _⟩ => ⟨S1x5, .f32⟩
  | .local _ .vmem, ⟨30, _⟩ => ⟨S5x5, .f32⟩
  | .local _ .vmem, ⟨31, _⟩ => ⟨S1x5, .f32⟩
  | .local _ .vmem, ⟨32, _⟩ => ⟨S5000x5, .f32⟩
  | .local _ .vmem, ⟨33, _⟩ => ⟨S5000x5, .f32⟩
  | _, _ => ⟨S500000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x5 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x5 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S5x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x5 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5x5 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x5 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S5x5 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x5 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x5 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  shapeCasts_S500000_S500000x1 : S500000.ShapeCasts S500000x1
  shapeCasts_S5_S1x5 : S5.ShapeCasts S1x5
  inb_S5000x5_S5000x5_0_0 : ∀ a, (![0, 0] : Fin 2 → Nat) a + S5000x5.size a ≤ S5000x5.size a
  h_S5000x5 : 0 < S5000x5.numel
  inb_S5x5_S5x5_0_0 : ∀ a, (![0, 0] : Fin 2 → Nat) a + S5x5.size a ≤ S5x5.size a
  h_S5x5 : 0 < S5x5.numel
  transposes_S5x5_p1_0_S5x5 : S5x5.Transposes [1, 0] S5x5
  bcast_S16000000x1_S16000000x5_0_1 : S16000000x1.BroadcastsInDim S16000000x5 (![0, 1] : Fin 2 → Fin S16000000x5.rank)
  bcast_S_S500000x5 : S_.BroadcastsInDim S500000x5 (![] : Fin 0 → Fin S500000x5.rank)
  shapeCasts_S5000x5_S5000x5 : S5000x5.ShapeCasts S5000x5
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x5 : S5000x1.Broadcasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  scatter_S500000_S16000000x1_S16000000_n_0_0_1_wf : ScatterDims.WF S500000 S16000000x1 S16000000 [] [0] [0] 1
  dot_S5000x5_S5x5_S5000x5_1_0_0_1_n_n_wf : DotDims.WF S5000x5 S5x5 S5000x5 [1] [0] [0] [1] [] []
  gather_S500000x5_S16000000x1_S16000000x5_1_0_n_n_0_1_15_wf : GatherDims.WF S500000x5 S16000000x1 S16000000x5 [1] [0] [] [0] [] 1 ![1, 5]
  scatter_S500000x5_S16000000x1_S16000000x5_1_0_0_1_wf : ScatterDims.WF S500000x5 S16000000x1 S16000000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S500000x5.size a
  hwx0_0 : ∀ i : grid0.Coords, EltTy.bits .f32 = 32 ∨ (Rect.block (s := S500000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x5.size a ≤ S500000x5.size a
  hwx0_2 : ∀ i : grid0.Coords, EltTy.bits .f32 = 32 ∨ (Rect.block (s := S500000x5) S5000x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S500000x5.size a
  hwx1_0 : ∀ i : grid1.Coords, EltTy.bits .f32 = 32 ∨ (Rect.block (s := S500000x5) S5000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .f32 = 32 ∨ (Rect.block (s := S500000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x5.size a ≤ S1x5.size a
  hwx1_2 : ∀ i : grid1.Coords, EltTy.bits .f32 = 32 ∨ (Rect.block (s := S1x5) S1x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x5.size a ≤ S5x5.size a
  hwx1_3 : ∀ i : grid1.Coords, EltTy.bits .f32 = 32 ∨ (Rect.block (s := S5x5) S5x5.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x5.size a ≤ S500000x5.size a
  hwx1_4 : ∀ i : grid1.Coords, EltTy.bits .f32 = 32 ∨ (Rect.block (s := S500000x5) S5000x5.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x5.size a ≤ S500000x5.size a
  hwx2_0 : ∀ i : grid2.Coords, EltTy.bits .f32 = 32 ∨ (Rect.block (s := S500000x5) S5000x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S500000x1.size a
  hwx2_1 : ∀ i : grid2.Coords, EltTy.bits .f32 = 32 ∨ (Rect.block (s := S500000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5x5.size a ≤ S5x5.size a
  hwx2_3 : ∀ i : grid2.Coords, EltTy.bits .f32 = 32 ∨ (Rect.block (s := S5x5) S5x5.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x5.size a ≤ S500000x5.size a
  hwx2_4 : ∀ i : grid2.Coords, EltTy.bits .f32 = 32 ∨ (Rect.block (s := S500000x5) S5000x5.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x5.size a ≤ S500000x5.size a
  hwx3_0 : ∀ i : grid3.Coords, EltTy.bits .f32 = 32 ∨ (Rect.block (s := S500000x5) S5000x5.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S500000x1.size a
  hwx3_1 : ∀ i : grid3.Coords, EltTy.bits .f32 = 32 ∨ (Rect.block (s := S500000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x5.size a ≤ S1x5.size a
  hwx3_2 : ∀ i : grid3.Coords, EltTy.bits .f32 = 32 ∨ (Rect.block (s := S1x5) S1x5.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S5x5.size a ≤ S5x5.size a
  hwx3_3 : ∀ i : grid3.Coords, EltTy.bits .f32 = 32 ∨ (Rect.block (s := S5x5) S5x5.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x5.size a ≤ S1x5.size a
  hwx3_4 : ∀ i : grid3.Coords, EltTy.bits .f32 = 32 ∨ (Rect.block (s := S1x5) S1x5.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S5x5.size a ≤ S5x5.size a
  hwx3_5 : ∀ i : grid3.Coords, EltTy.bits .f32 = 32 ∨ (Rect.block (s := S5x5) S5x5.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x5.size a ≤ S1x5.size a
  hwx3_6 : ∀ i : grid3.Coords, EltTy.bits .f32 = 32 ∨ (Rect.block (s := S1x5) S1x5.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S5x5.size a ≤ S5x5.size a
  hwx3_7 : ∀ i : grid3.Coords, EltTy.bits .f32 = 32 ∨ (Rect.block (s := S5x5) S5x5.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x5.size a ≤ S1x5.size a
  hwx3_8 : ∀ i : grid3.Coords, EltTy.bits .f32 = 32 ∨ (Rect.block (s := S1x5) S1x5.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x5.size a ≤ S500000x5.size a
  hwx3_9 : ∀ i : grid3.Coords, EltTy.bits .f32 = 32 ∨ (Rect.block (s := S500000x5) S5000x5.size (cc3_transform_9 i) (hinb3_9 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def gather_S500000x5_S16000000x1_S16000000x5_1_0_n_n_0_1_15 : GatherDims S500000x5 S16000000x1 S16000000x5 where
  offsetDims := [1]
  collapsedSliceDims := [0]
  operandBatchingDims := []
  startIndicesBatchingDims := []
  startIndexMap := [0]
  indexVectorDim := 1
  sliceSizes := ![1, 5]
  wf := gather_S500000x5_S16000000x1_S16000000x5_1_0_n_n_0_1_15_wf
def scatter_S500000x5_S16000000x1_S16000000x5_1_0_0_1 : ScatterDims S500000x5 S16000000x1 S16000000x5 where
  updateWindowDims := [1]
  insertedWindowDims := [0]
  scatterDimsToOperandDims := [0]
  indexVectorDim := 1
  wf := scatter_S500000x5_S16000000x1_S16000000x5_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S5x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x5.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S5x5.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S5000x5.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v60) S5000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x5.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S5x5.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x5.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S5x5.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S1x5.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S5x5.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v18) S1x5.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S5000x5.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S500000x5 : Shape := ⟨2, ![500000, 5]⟩
abbrev S2x16000000 : Shape := ⟨2, ![2, 16000000]⟩
abbrev S16000000 : Shape := ⟨1, ![16000000]⟩
abbrev S5x5 : Shape := ⟨2, ![5, 5]⟩
abbrev S5 : Shape := ⟨1, ![5]⟩
abbrev S1x16000000 : Shape := ⟨2, ![1, 16000000]⟩
abbrev S_ : Shape := ⟨0, ![]⟩
abbrev S16000000x1 : Shape := ⟨2, ![16000000, 1]⟩
abbrev S16000000x5 : Shape := ⟨2, ![16000000, 5]⟩
abbrev S500000 : Shape := ⟨1, ![500000]⟩
abbrev S500000x1 : Shape := ⟨2, ![500000, 1]⟩
abbrev S1x5 : Shape := ⟨2, ![1, 5]⟩

abbrev nBuf : Space → Nat
  | .hbm => 148
  | .vmem => 0
  | .smem => 0
  | _ => 0

abbrev hbmTy0_0 (i : Nat) : BufTy := match i % 128 with
  | 0 => ⟨S500000x5, .f32⟩
  | 1 => ⟨S2x16000000, .i32⟩
  | 2 => ⟨S16000000, .f32⟩
  | 3 => ⟨S5x5, .f32⟩
  | 4 => ⟨S5, .f32⟩
  | 5 => ⟨S5x5, .f32⟩
  | 6 => ⟨S5, .f32⟩
  | 7 => ⟨S5x5, .f32⟩
  | 8 => ⟨S5, .f32⟩
  | 9 => ⟨S5x5, .f32⟩
  | 10 => ⟨S5, .f32⟩
  | 11 => ⟨S5x5, .f32⟩
  | 12 => ⟨S5, .f32⟩
  | 13 => ⟨S5x5, .f32⟩
  | 14 => ⟨S5, .f32⟩
  | 15 => ⟨S1x16000000, .i32⟩
  | 16 => ⟨S16000000, .i32⟩
  | 17 => ⟨S1x16000000, .i32⟩
  | 18 => ⟨S16000000, .i32⟩
  | 19 => ⟨S5x5, .f32⟩
  | 20 => ⟨S500000x5, .f32⟩
  | 21 => ⟨S_, .i32⟩
  | 22 => ⟨S16000000, .i32⟩
  | 23 => ⟨S16000000, .i1⟩
  | 24 => ⟨S_, .i32⟩
  | 25 => ⟨S16000000, .i32⟩
  | 26 => ⟨S16000000, .i32⟩
  | 27 => ⟨S16000000, .i32⟩
  | 28 => ⟨S16000000x1, .i32⟩
  | 29 => ⟨S16000000x5, .f32⟩
  | 30 => ⟨S16000000x1, .f32⟩
  | 31 => ⟨S16000000x5, .f32⟩
  | 32 => ⟨S16000000x5, .f32⟩
  | 33 => ⟨S_, .f32⟩
  | 34 => ⟨S500000x5, .f32⟩
  | 35 => ⟨S16000000x1, .i32⟩
  | 36 => ⟨S500000x5, .f32⟩
  | 37 => ⟨S_, .f32⟩
  | 38 => ⟨S16000000, .f32⟩
  | 39 => ⟨S_, .f32⟩
  | 40 => ⟨S500000, .f32⟩
  | 41 => ⟨S16000000x1, .i32⟩
  | 42 => ⟨S500000, .f32⟩
  | 43 => ⟨S_, .f32⟩
  | 44 => ⟨S500000, .f32⟩
  | 45 => ⟨S500000, .f32⟩
  | 46 => ⟨S500000x1, .f32⟩
  | 47 => ⟨S500000x5, .f32⟩
  | 48 => ⟨S500000x5, .f32⟩
  | 49 => ⟨S1x5, .f32⟩
  | 50 => ⟨S500000x5, .f32⟩
  | 51 => ⟨S500000x5, .f32⟩
  | 52 => ⟨S_, .f32⟩
  | 53 => ⟨S500000x5, .f32⟩
  | 54 => ⟨S500000x5, .f32⟩
  | 55 => ⟨S5x5, .f32⟩
  | 56 => ⟨S500000x5, .f32⟩
  | 57 => ⟨S_, .i32⟩
  | 58 => ⟨S16000000, .i32⟩
  | 59 => ⟨S16000000, .i1⟩
  | 60 => ⟨S_, .i32⟩
  | 61 => ⟨S16000000, .i32⟩
  | 62 => ⟨S16000000, .i32⟩
  | 63 => ⟨S16000000, .i32⟩
  | 64 => ⟨S16000000x1, .i32⟩
  | 65 => ⟨S16000000x5, .f32⟩
  | 66 => ⟨S16000000x1, .f32⟩
  | 67 => ⟨S16000000x5, .f32⟩
  | 68 => ⟨S16000000x5, .f32⟩
  | 69 => ⟨S_, .f32⟩
  | 70 => ⟨S500000x5, .f32⟩
  | 71 => ⟨S16000000x1, .i32⟩
  | 72 => ⟨S500000x5, .f32⟩
  | 73 => ⟨S_, .f32⟩
  | 74 => ⟨S16000000, .f32⟩
  | 75 => ⟨S_, .f32⟩
  | 76 => ⟨S500000, .f32⟩
  | 77 => ⟨S16000000x1, .i32⟩
  | 78 => ⟨S500000, .f32⟩
  | 79 => ⟨S_, .f32⟩
  | 80 => ⟨S500000, .f32⟩
  | 81 => ⟨S500000, .f32⟩
  | 82 => ⟨S500000x1, .f32⟩
  | 83 => ⟨S500000x5, .f32⟩
  | 84 => ⟨S500000x5, .f32⟩
  | 85 => ⟨S1x5, .f32⟩
  | 86 => ⟨S500000x5, .f32⟩
  | 87 => ⟨S500000x5, .f32⟩
  | 88 => ⟨S_, .f32⟩
  | 89 => ⟨S500000x5, .f32⟩
  | 90 => ⟨S500000x5, .f32⟩
  | 91 => ⟨S5x5, .f32⟩
  | 92 => ⟨S500000x5, .f32⟩
  | 93 => ⟨S_, .i32⟩
  | 94 => ⟨S16000000, .i32⟩
  | 95 => ⟨S16000000, .i1⟩
  | 96 => ⟨S_, .i32⟩
  | 97 => ⟨S16000000, .i32⟩
  | 98 => ⟨S16000000, .i32⟩
  | 99 => ⟨S16000000, .i32⟩
  | 100 => ⟨S16000000x1, .i32⟩
  | 101 => ⟨S16000000x5, .f32⟩
  | 102 => ⟨S16000000x1, .f32⟩
  | 103 => ⟨S16000000x5, .f32⟩
  | 104 => ⟨S16000000x5, .f32⟩
  | 105 => ⟨S_, .f32⟩
  | 106 => ⟨S500000x5, .f32⟩
  | 107 => ⟨S16000000x1, .i32⟩
  | 108 => ⟨S500000x5, .f32⟩
  | 109 => ⟨S_, .f32⟩
  | 110 => ⟨S16000000, .f32⟩
  | 111 => ⟨S_, .f32⟩
  | 112 => ⟨S500000, .f32⟩
  | 113 => ⟨S16000000x1, .i32⟩
  | 114 => ⟨S500000, .f32⟩
  | 115 => ⟨S_, .f32⟩
  | 116 => ⟨S500000, .f32⟩
  | 117 => ⟨S500000, .f32⟩
  | 118 => ⟨S500000x1, .f32⟩
  | 119 => ⟨S500000x5, .f32⟩
  | 120 => ⟨S500000x5, .f32⟩
  | 121 => ⟨S1x5, .f32⟩
  | 122 => ⟨S500000x5, .f32⟩
  | 123 => ⟨S500000x5, .f32⟩
  | 124 => ⟨S_, .f32⟩
  | 125 => ⟨S500000x5, .f32⟩
  | 126 => ⟨S500000x5, .f32⟩
  | 127 => ⟨S5x5, .f32⟩
  | _ => ⟨S500000x5, .f32⟩

abbrev hbmTy0_1 (i : Nat) : BufTy := match i % 128 with
  | 0 => ⟨S500000x5, .f32⟩
  | 1 => ⟨S1x5, .f32⟩
  | 2 => ⟨S500000x5, .f32⟩
  | 3 => ⟨S500000x5, .f32⟩
  | 4 => ⟨S_, .f32⟩
  | 5 => ⟨S500000x5, .f32⟩
  | 6 => ⟨S500000x5, .f32⟩
  | 7 => ⟨S5x5, .f32⟩
  | 8 => ⟨S500000x5, .f32⟩
  | 9 => ⟨S1x5, .f32⟩
  | 10 => ⟨S500000x5, .f32⟩
  | 11 => ⟨S500000x5, .f32⟩
  | 12 => ⟨S_, .f32⟩
  | 13 => ⟨S500000x5, .f32⟩
  | 14 => ⟨S500000x5, .f32⟩
  | 15 => ⟨S5x5, .f32⟩
  | 16 => ⟨S500000x5, .f32⟩
  | 17 => ⟨S1x5, .f32⟩
  | 18 => ⟨S500000x5, .f32⟩
  | 19 => ⟨S500000x5, .f32⟩
  | _ => ⟨S500000x5, .f32⟩

abbrev hbmTy (i : Nat) : BufTy := match i / 128 with
  | 0 => hbmTy0_0 i
  | 1 => hbmTy0_1 i
  | _ => ⟨S500000x5, .f32⟩

abbrev bufTy : (tb : Table) → Fin (tcTables nBuf tb) → BufTy
  | .hbm, ⟨i, _⟩ => hbmTy i
  | _, _ => ⟨S500000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_cst : Ref sig .tc := ⟨.hbm, 88, rfl⟩
abbrev main_call1_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_10 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call2_cst : Ref sig .tc := ⟨.hbm, 124, rfl⟩
abbrev main_call2_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_call3_cst : Ref sig .tc := ⟨.hbm, 132, rfl⟩
abbrev main_call3_v0 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call4_cst : Ref sig .tc := ⟨.hbm, 140, rfl⟩
abbrev main_call4_v0 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  transposes_S5x5_S5x5_1_0 : S5x5.Transposes [1, 0] S5x5
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S16000000x1_S16000000x5_0_1 : S16000000x1.BroadcastsInDim S16000000x5 (![0, 1] : Fin 2 → Fin S16000000x5.rank)
  bcast_S_S500000x5 : S_.BroadcastsInDim S500000x5 (![] : Fin 0 → Fin S500000x5.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x5_0_1 : S500000x1.BroadcastsInDim S500000x5 (![0, 1] : Fin 2 → Fin S500000x5.rank)
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  dot_S500000x5_S5x5_S500000x5_1_0_0_1_n_n_wf : DotDims.WF S500000x5 S5x5 S500000x5 [1] [0] [0] [1] [] []
  gather_S500000x5_S16000000x1_S16000000x5_1_0_n_n_0_1_15_wf : GatherDims.WF S500000x5 S16000000x1 S16000000x5 [1] [0] [] [0] [] 1 ![1, 5]
  scatter_S500000x5_S16000000x1_S16000000x5_1_0_0_1_wf : ScatterDims.WF S500000x5 S16000000x1 S16000000x5 [1] [0] [0] 1
  scatter_S500000_S16000000x1_S16000000_n_0_0_1_wf : ScatterDims.WF S500000 S16000000x1 S16000000 [] [0] [0] 1

variable [Facts₀]

def dot_S500000x5_S5x5_S500000x5_1_0_0_1_n_n : DotDims S500000x5 S5x5 S500000x5 where
  lhsContracting := [1]
  rhsContracting := [0]
  lhsNonContracting := [0]
  rhsNonContracting := [1]
  lhsBatch := []
  rhsBatch := []
  wf := dot_S500000x5_S5x5_S500000x5_1_0_0_1_n_n_wf
def gather_S500000x5_S16000000x1_S16000000x5_1_0_n_n_0_1_15 : GatherDims S500000x5 S16000000x1 S16000000x5 where
  offsetDims := [1]
  collapsedSliceDims := [0]
  operandBatchingDims := []
  startIndicesBatchingDims := []
  startIndexMap := [0]
  indexVectorDim := 1
  sliceSizes := ![1, 5]
  wf := gather_S500000x5_S16000000x1_S16000000x5_1_0_n_n_0_1_15_wf
def scatter_S500000x5_S16000000x1_S16000000x5_1_0_0_1 : ScatterDims S500000x5 S16000000x1 S16000000x5 where
  updateWindowDims := [1]
  insertedWindowDims := [0]
  scatterDimsToOperandDims := [0]
  indexVectorDim := 1
  wf := scatter_S500000x5_S16000000x1_S16000000x5_1_0_0_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.Boundaries.lean ====
/-
  Which buffers keep their contents from the first region's entry to the last region's entry.

  The program alternates host stretches and regions. A region changes only its own output array: its input arrays
  and every buffer it does not name come out as they went in. A host stretch changes only the buffers its operations
  write. So a buffer that is none of the three earlier regions' outputs and that none of the three later host
  stretches writes — the edge sources and targets, the reciprocal column, the bias rows, the edge weights and the
  weight matrices — holds at every later boundary what it held when the first region was entered.
-/
import proofs.«140499_j53781580480525_1_alg».proof.Proof.Gen.KernelIdeal.Frame
import Idealize.ShloMosaic.PureOps.Ideal

set_option maxRecDepth 16384

noncomputable section

namespace Cert.KernelIdeal.Boundaries

open Cert.KernelIdeal Cert.KernelIdeal.Gen Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-! ## Through a region -/

/-- The first region leaves every buffer but its output as it found it. -/
theorem region0_keeps (c : Dev nD) (b : Ref sig .tc) (hb : b ≠ main_v19) :
    W2 m ρ c (Proc.devRef .tc b) = W1 m ρ c (Proc.devRef .tc b) := by
  by_cases h : ∃ w, Pipeline.arrRef spec0 w = b
  · obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact absurd rfl hb
  · exact W2_of_ne m ρ c b fun w e => h ⟨w, e⟩

/-- The second region leaves every buffer but its output as it found it. -/
theorem region1_keeps (c : Dev nD) (b : Ref sig .tc) (hb : b ≠ main_v33) :
    W4 m ρ c (Proc.devRef .tc b) = W3 m ρ c (Proc.devRef .tc b) := by
  by_cases h : ∃ w, Pipeline.arrRef spec1 w = b
  · obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact absurd rfl hb
  · exact W4_of_ne m ρ c b fun w e => h ⟨w, e⟩

/-- The third region leaves every buffer but its output as it found it. -/
theorem region2_keeps (c : Dev nD) (b : Ref sig .tc) (hb : b ≠ main_v47) :
    W6 m ρ c (Proc.devRef .tc b) = W5 m ρ c (Proc.devRef .tc b) := by
  by_cases h : ∃ w, Pipeline.arrRef spec2 w = b
  · obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact absurd rfl hb
  · exact W6_of_ne m ρ c b fun w e => h ⟨w, e⟩

/-! ## Through a host stretch -/

/-- The buffers the stretch before the first region writes. -/
abbrev written0 : List (Ref sig .tc) :=
  [main_v0, main_v1, main_v2, main_v3, main_cst, main_v4, main_cst_0, main_v5, main_v6, main_v7, main_cst_1, main_v8, main_v9,
   main_cst_2, main_v10, main_v11, main_v12, main_v13, main_v14, main_v15, main_v16, main_v17, main_v18]
/-- The buffers the stretch before the second region writes. -/
abbrev written1 : List (Ref sig .tc) :=
  [main_c, main_v20, main_v21, main_c_3, main_v22, main_v23, main_v24, main_v25, main_v26, main_v27, main_v28, main_v29,
   main_cst_4, main_v30, main_v31, main_v32]
/-- The buffers the stretch before the third region writes. -/
abbrev written2 : List (Ref sig .tc) :=
  [main_c_5, main_v34, main_v35, main_c_6, main_v36, main_v37, main_v38, main_v39, main_v40, main_v41, main_v42, main_v43,
   main_cst_7, main_v44, main_v45, main_v46]
/-- The buffers the stretch before the last region writes. -/
abbrev written3 : List (Ref sig .tc) :=
  [main_c_8, main_v48, main_v49, main_c_9, main_v50, main_v51, main_v52, main_v53, main_v54, main_v55, main_v56, main_v57,
   main_cst_10, main_v58, main_v59, main_v60]

theorem stretch0_keeps (W : Valuation τ sig (Elt Ideal)) (b : Ref sig .tc) (hb : b ∉ written0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

theorem stretch1_keeps (W : Valuation τ sig (Elt Ideal)) (b : Ref sig .tc) (hb : b ∉ written1) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

theorem stretch2_keeps (W : Valuation τ sig (Elt Ideal)) (b : Ref sig .tc) (hb : b ∉ written2) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

theorem stretch3_keeps (W : Valuation τ sig (Elt Ideal)) (b : Ref sig .tc) (hb : b ∉ written3) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by subst e; decide))))

/-! ## From the first region's entry to every later boundary -/

/-- A buffer no region before the last outputs and no later stretch writes holds, at each later boundary, what it
    held at the first region's entry. -/
theorem kept (c : Dev nD) (b : Ref sig .tc) (h0 : b ≠ main_v19) (h1 : b ≠ main_v33) (h2 : b ≠ main_v47)
    (k1 : b ∉ written1) (k2 : b ∉ written2) (k3 : b ∉ written3) :
    W2 m ρ c (Proc.devRef .tc b) = W1 m ρ c (Proc.devRef .tc b)
    ∧ W3 m ρ c (Proc.devRef .tc b) = W1 m ρ c (Proc.devRef .tc b)
    ∧ W4 m ρ c (Proc.devRef .tc b) = W1 m ρ c (Proc.devRef .tc b)
    ∧ W5 m ρ c (Proc.devRef .tc b) = W1 m ρ c (Proc.devRef .tc b)
    ∧ W6 m ρ c (Proc.devRef .tc b) = W1 m ρ c (Proc.devRef .tc b)
    ∧ W7 m ρ c (Proc.devRef .tc b) = W1 m ρ c (Proc.devRef .tc b) := by
  have e2 := region0_keeps m ρ c b h0
  have e3 : W3 m ρ c (Proc.devRef .tc b) = W1 m ρ c (Proc.devRef .tc b) := (stretch1_keeps (W2 m ρ c) b k1).trans e2
  have e4 := (region1_keeps m ρ c b h1).trans e3
  have e5 : W5 m ρ c (Proc.devRef .tc b) = W1 m ρ c (Proc.devRef .tc b) := (stretch2_keeps (W4 m ρ c) b k2).trans e4
  have e6 := (region2_keeps m ρ c b h2).trans e5
  have e7 : W7 m ρ c (Proc.devRef .tc b) = W1 m ρ c (Proc.devRef .tc b) := (stretch3_keeps (W6 m ρ c) b k3).trans e6
  exact ⟨e2, e3, e4, e5, e6, e7⟩

end Cert.KernelIdeal.Boundaries

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Layers.lean ====
/-
  The row-wise operations of a graph-convolution layer, over matrices of five columns and any number of rows.

  Every dense step of the network acts on a matrix `X` of `n` rows and five columns one row at a time: the product
  with a transposed 5 × 5 weight (`mulT`: entry `(r, o)` is the sum over `k` of `X (r, k) · W (o, k)`), the addition
  of a bias row (`addRow`), the rectifier (`relu`: the maximum with zero) and the scaling of row `r` by the `r`-th
  entry of a column (`scaleRows`). Because each of them reads only row `r` of its matrix operand to produce row
  `r`, they commute with taking a block of rows: if `X'` holds the rows `f p` of `X` (`RowsOf f X' X`), then the
  operation applied to `X'` holds the rows `f p` of the operation applied to `X`. A kernel that streams the matrix
  through in blocks of rows therefore computes, block by block, the same matrix as the operation applied to the whole.
-/
import Idealize.ShloMosaic.PureOps.Ideal
import Idealize.ShloMosaic.Lib.ValueIdx

noncomputable section

namespace Cert.Gcn

open Idealize.ShloMosaic Idealize.ShloMosaic.ValueIdx
open scoped BigOperators

/-- A matrix of `n` rows and five columns of extended reals. -/
abbrev Mat (n : ℕ) : Type := (⟨2, ![n, 5]⟩ : Shape).Idx → EReal
/-- A 5 × 5 weight. -/
abbrev Sq : Type := (⟨2, ![5, 5]⟩ : Shape).Idx → EReal
/-- A bias laid out as one row. -/
abbrev Row : Type := (⟨2, ![1, 5]⟩ : Shape).Idx → EReal
/-- One factor per row, laid out as a column. -/
abbrev Col (n : ℕ) : Type := (⟨2, ![n, 1]⟩ : Shape).Idx → EReal

/-- The float word of zero, kept as the programs spell it. -/
abbrev zeroWord : EReal := Ideal.ofBits .f32 0x00000000#32

variable {n n' : ℕ}

/-- `X · Wᵀ`: entry `(r, o)` is `Σ k, X (r, k) · W (o, k)`. -/
def mulT (X : Mat n) (W : Sq) : Mat n := fun i => ∑ k : Fin 5, X (ix2 (i 0) k) * W (ix2 (i 1) k)
/-- The bias row added to every row. -/
def addRow (X : Mat n) (b : Row) : Mat n := fun i => X i + b (ix2 (0 : Fin 1) (i 1))
/-- The rectifier, entry by entry. -/
def relu (X : Mat n) : Mat n := fun i => max (X i) zeroWord
/-- Row `r` multiplied by the column's entry `r`. -/
def scaleRows (X : Mat n) (s : Col n) : Mat n := fun i => X i * s (ix2 (i 0) (0 : Fin 1))

/-- `X'` holds the rows `f p` of `X`. -/
def RowsOf (f : Fin n' → Fin n) (X' : Mat n') (X : Mat n) : Prop := ∀ (p : Fin n') (k : Fin 5), X' (ix2 p k) = X (ix2 (f p) k)

theorem RowsOf.mulT {f : Fin n' → Fin n} {X' : Mat n'} {X : Mat n} (h : RowsOf f X' X) (W : Sq) :
    RowsOf f (mulT X' W) (mulT X W) := fun p o => by
  show ∑ k : Fin 5, X' (ix2 p k) * W (ix2 o k) = ∑ k : Fin 5, X (ix2 (f p) k) * W (ix2 o k)
  exact Finset.sum_congr rfl fun k _ => by rw [h p k]

theorem RowsOf.addRow {f : Fin n' → Fin n} {X' : Mat n'} {X : Mat n} (h : RowsOf f X' X) (b : Row) :
    RowsOf f (addRow X' b) (addRow X b) := fun p k => by
  show X' (ix2 p k) + b (ix2 (0 : Fin 1) k) = X (ix2 (f p) k) + b (ix2 (0 : Fin 1) k)
  rw [h p k]

theorem RowsOf.relu {f : Fin n' → Fin n} {X' : Mat n'} {X : Mat n} (h : RowsOf f X' X) :
    RowsOf f (relu X') (relu X) := fun p k => by
  show max (X' (ix2 p k)) zeroWord = max (X (ix2 (f p) k)) zeroWord
  rw [h p k]

theorem RowsOf.scaleRows {f : Fin n' → Fin n} {X' : Mat n'} {X : Mat n} (h : RowsOf f X' X) {s' : Col n'} {s : Col n}
    (hs : ∀ p : Fin n', s' (ix2 p (0 : Fin 1)) = s (ix2 (f p) (0 : Fin 1))) :
    RowsOf f (scaleRows X' s') (scaleRows X s) := fun p k => by
  show X' (ix2 p k) * s' (ix2 p (0 : Fin 1)) = X (ix2 (f p) k) * s (ix2 (f p) (0 : Fin 1))
  rw [h p k, hs p]

/-- Row `p` of the `t`-th block of 5000 rows, as a row of the whole matrix of 100 such blocks. -/
def blockRow (t : ℕ) (ht : t < 100) (p : Fin 5000) : Fin 500000 := ⟨t * 5000 + p.val, by have := p.isLt; omega⟩

theorem blockRow_val (t : ℕ) (ht : t < 100) (p : Fin 5000) : (blockRow t ht p).val = t * 5000 + p.val := rfl

/-- Two matrices of the same rows are equal when each holds the other's rows along the identity. -/
theorem RowsOf.eq_of_id {X' X : Mat n} (h : RowsOf id X' X) : X' = X :=
  funext fun i => by rw [eq_ix2 i]; exact h (i 0) (i 1)

end Cert.Gcn

end
-- ==== Proof.Glue.lean ====
/-
  The host steps between the dense stages, as named functions of the edge list, the edge weights and a node matrix.

  The edge list is a `[2, E]` array of node numbers: its first row the source of each edge, its second the target.
  `aggregate` is one message pass: every edge reads its source node's row (a negative number counted from the end),
  scales it by the edge's weight and adds it into its target node's row of a matrix that starts at zero. `counts` adds
  a one into each edge's target entry of a vector that starts at zero — the number of edges arriving at each node —
  and `factors` is the column of reciprocals `1 / max(count, 1)`. `asRow` lays a bias vector out as a `[1, 5]` row.
  Both programs apply exactly these host operations, so they are kept as whole functions and never read inside; what
  is read, at an index, is only the reciprocal column and the bias row.
-/
import proofs.«140499_j53781580480525_1_alg».proof.Proof.Gen.KernelIdeal
import proofs.«140499_j53781580480525_1_alg».proof.Proof.LibColumn
import proofs.«140499_j53781580480525_1_alg».proof.Proof.Layers
import Idealize.ShloMosaic.Lib.ValueLayout
import Idealize.ShloMosaic.Lib.Pipeline.Value
import Idealize.ShloMosaic.Lib.IdealHost

set_option maxRecDepth 16384

noncomputable section

namespace Cert.KernelIdeal.Glue

open Cert.KernelIdeal Cert.KernelIdeal.Gen Cert.Gcn Idealize.ShloMosaic Idealize.ShloMosaic.ValueIdx

/-- The float word of one, kept as the programs spell it. -/
abbrev oneWord : EReal := Ideal.ofBits .f32 0x3F800000#32

/-- The sources of the edges: row 0 of the edge list. -/
def sources (e : (⟨S2x16000000, .i32⟩ : BufTy).Contents (Elt Ideal)) : (⟨S16000000, .i32⟩ : BufTy).Contents (Elt Ideal) :=
  shapeCast S16000000 (extractStridedSlice S1x16000000 ![0, 0] e slices_S2x16000000_S1x16000000_0_0) shapeCasts_S1x16000000_S16000000

/-- The targets of the edges: row 1 of the edge list. -/
def targets (e : (⟨S2x16000000, .i32⟩ : BufTy).Contents (Elt Ideal)) : (⟨S16000000, .i32⟩ : BufTy).Contents (Elt Ideal) :=
  shapeCast S16000000 (extractStridedSlice S1x16000000 ![1, 0] e slices_S2x16000000_S1x16000000_1_0) shapeCasts_S1x16000000_S16000000

/-- The number of edges arriving at each node: a one added into each edge's target entry, from zero. -/
def counts (dst : (⟨S16000000, .i32⟩ : BufTy).Contents (Elt Ideal)) : (⟨S500000, .f32⟩ : BufTy).Contents (Elt Ideal) :=
  Host.scatterAdd scatter_S500000_S16000000x1_S16000000_n_0_0_1
    (broadcastInDim S500000 ![] bcast_S_S500000 (constant (F := Ideal) S_ .f32 0x00000000#32))
    (broadcastInDim S16000000x1 ![0] bcast_S16000000_S16000000x1_0 dst)
    (broadcastInDim S16000000 ![] bcast_S_S16000000 (constant (F := Ideal) S_ .f32 0x3F800000#32))

/-- The counts raised to at least one. -/
def atLeastOne (cnt : (⟨S500000, .f32⟩ : BufTy).Contents (Elt Ideal)) : (⟨S500000, .f32⟩ : BufTy).Contents (Elt Ideal) :=
  maximumf cnt (broadcastInDim S500000 ![] bcast_S_S500000 (constant (F := Ideal) S_ .f32 0x3F800000#32))

/-- The column of reciprocals `1 / max(count, 1)`, one per node. -/
def factors (dst : (⟨S16000000, .i32⟩ : BufTy).Contents (Elt Ideal)) : (⟨S500000x1, .f32⟩ : BufTy).Contents (Elt Ideal) :=
  shapeCast S500000x1
    (Host.divf (broadcastInDim S500000 ![] bcast_S_S500000 (constant (F := Ideal) S_ .f32 0x3F800000#32)) (atLeastOne (counts dst)))
    shapeCasts_S500000_S500000x1

/-- A bias vector laid out as one row. -/
def asRow (b : (⟨S5, .f32⟩ : BufTy).Contents (Elt Ideal)) : (⟨S1x5, .f32⟩ : BufTy).Contents (Elt Ideal) :=
  shapeCast S1x5 b shapeCasts_S5_S1x5

/-- One message pass: each edge's source row, scaled by the edge's weight, added into its target row, from zero. -/
def aggregate (src dst : (⟨S16000000, .i32⟩ : BufTy).Contents (Elt Ideal)) (ew : (⟨S16000000, .f32⟩ : BufTy).Contents (Elt Ideal))
    (X : (⟨S500000x5, .f32⟩ : BufTy).Contents (Elt Ideal)) : (⟨S500000x5, .f32⟩ : BufTy).Contents (Elt Ideal) :=
  Host.scatterAdd scatter_S500000x5_S16000000x1_S16000000x5_1_0_0_1
    (broadcastInDim S500000x5 ![] bcast_S_S500000x5 (constant (F := Ideal) S_ .f32 0x00000000#32))
    (broadcastInDim S16000000x1 ![0] bcast_S16000000_S16000000x1_0 dst)
    (mulf
      (Host.gather gather_S500000x5_S16000000x1_S16000000x5_1_0_n_n_0_1_15 X
        (broadcastInDim S16000000x1 ![0] bcast_S16000000_S16000000x1_0
          (select (cmpi .slt src (broadcastInDim S16000000 ![] bcast_S_S16000000 (constantI S_ 32 0#32)))
            (addi src (broadcastInDim S16000000 ![] bcast_S_S16000000 (constantI S_ 32 500000#32))) src)))
      (broadcastInDim S16000000x5 ![0, 1] bcast_S16000000x1_S16000000x5_0_1
        (broadcastInDim S16000000x1 ![0] bcast_S16000000_S16000000x1_0 ew)))

/-- The splat of one over the nodes reads one at every node. -/
theorem ones_apply (i : S500000.Idx) :
    broadcastInDim S500000 ![] bcast_S_S500000 (constant (F := Ideal) S_ .f32 0x3F800000#32) i = oneWord :=
  broadcastInDim_apply _ bcast_S_S500000 _ i ix0 (fun a => a.elim0)

/-- The reciprocal column at node `r`: one over the node's count raised to at least one. -/
theorem factors_apply (dst : (⟨S16000000, .i32⟩ : BufTy).Contents (Elt Ideal)) (r : Fin 500000) :
    factors dst (ix2 r (0 : Fin 1)) = Ideal.div oneWord (max (counts dst (ix1 r)) oneWord) := by
  unfold factors atLeastOne
  rw [Cert.LibColumn.shapeCast_a_a1_apply, hostDivf_apply, maximumf_apply, ones_apply]

/-- The bias row at column `k` is the bias vector at `k`. -/
theorem asRow_apply (b : (⟨S5, .f32⟩ : BufTy).Contents (Elt Ideal)) (k : Fin 5) : asRow b (ix2 (0 : Fin 1) k) = b (ix1 k) := by
  unfold asRow
  rw [shapeCast_a_1a_apply]

end Cert.KernelIdeal.Glue

end
-- ==== Proof.Reciprocal.lean ====
/-
  Multiplying by a reciprocal taken once, against dividing.

  A mean over the edges that arrive at a node divides each accumulated row by the node's edge count, raised to one
  where the node has no edge. One program forms the reciprocal `1 / max(count, 1)` once per node and multiplies
  every entry of the row by it; the other divides every entry by `max(count, 1)`. On the extended reals the quotient
  by a divisor other than zero is the product with the divisor's inverse, and `max(c, 1)` is at least one whatever
  `c` is (an infinity included), so it is never zero: `x · (1 · m⁻¹) = x · m⁻¹` for every extended real `x`, with
  no finiteness asked of `x` or of `c`.
-/
import Idealize.ShloMosaic.PureOps.Ideal
import Idealize.ShloMosaic.Lib.IdealHost

namespace Cert.Gcn

open Idealize.ShloMosaic

/-- `max c 1` is not zero: it is at least one. -/
theorem max_one_ne_zero (c : EReal) : max c (1 : EReal) ≠ 0 :=
  (lt_of_lt_of_le zero_lt_one (le_max_right c 1)).ne'

/-- `x · (1 / max(c, 1)) = x / max(c, 1)` on the extended reals, the literal one written as its float word. -/
theorem mul_reciprocal (x c : EReal) :
    x * Ideal.div (Ideal.ofBits .f32 0x3F800000#32) (max c (Ideal.ofBits .f32 0x3F800000#32))
      = Ideal.div x (max c (Ideal.ofBits .f32 0x3F800000#32)) := by
  rw [Ideal.ofBits_one_f32]
  rw [Ideal.div, Ideal.div, if_neg (max_one_ne_zero c), if_neg (max_one_ne_zero c), one_mul]

end Cert.Gcn
-- ==== Proof.Network.lean ====
/-
  The whole network as one function of its fifteen arguments.

  A convolution layer is one message pass over a node matrix, the mean over the edges arriving at each node (each
  row divided by `max(count, 1)`), a bias, and the rectifier: `meanRelu`. The network is three convolutions, each
  preceded by a product with a transposed weight, and three dense layers (`dense`: a product with a transposed weight
  plus a bias), the first two rectified. The kernel's regions compute the same layers with the mean taken as a
  product with the reciprocal column and the biases laid out as rows; `hidden_eq` and `dense_eq` bring that spelling
  to this one — the first by `x · (1 / max(c, 1)) = x / max(c, 1)`, which holds for every extended real.
-/
import proofs.«140499_j53781580480525_1_alg».proof.Proof.Glue
import proofs.«140499_j53781580480525_1_alg».proof.Proof.Reciprocal

set_option maxRecDepth 16384

noncomputable section

namespace Cert.KernelIdeal.Network

open Cert.KernelIdeal Cert.Gcn Cert.KernelIdeal.Glue Idealize.ShloMosaic Idealize.ShloMosaic.ValueIdx

/-- A bias vector. -/
abbrev Vec5 : Type := (⟨S5, .f32⟩ : BufTy).Contents (Elt Ideal)
/-- The edge list. -/
abbrev Edges : Type := (⟨S2x16000000, .i32⟩ : BufTy).Contents (Elt Ideal)
/-- The edge weights. -/
abbrev EdgeWeights : Type := (⟨S16000000, .f32⟩ : BufTy).Contents (Elt Ideal)

/-- Each row divided by its node's count raised to at least one, the bias added, the rectifier. -/
def meanRelu (A : Mat 500000) (cnt : (⟨S500000, .f32⟩ : BufTy).Contents (Elt Ideal)) (b : Vec5) : Mat 500000 :=
  fun i => max (Ideal.div (A i) (max (cnt (ix1 (i 0))) oneWord) + b (ix1 (i 1))) zeroWord

/-- A dense layer: `X · Wᵀ + b`. -/
def dense (X : Mat 500000) (W : Sq) (b : Vec5) : Mat 500000 := fun i => mulT X W i + b (ix1 (i 1))

/-- A convolution layer on an already transformed node matrix: message pass, mean, bias, rectifier. -/
def conv (e : Edges) (ew : EdgeWeights) (X : Mat 500000) (b : Vec5) : Mat 500000 :=
  meanRelu (aggregate (sources e) (targets e) ew X) (counts (targets e)) b

/-- The network: three convolutions and three dense layers. -/
def network (h : Mat 500000) (e : Edges) (ew : EdgeWeights) (W1 : Sq) (b1 : Vec5) (W2 : Sq) (b2 : Vec5) (W3 : Sq) (b3 : Vec5)
    (F1 : Sq) (c1 : Vec5) (F2 : Sq) (c2 : Vec5) (F3 : Sq) (c3 : Vec5) : Mat 500000 :=
  dense (relu (dense (relu (dense (conv e ew (mulT (conv e ew (mulT (conv e ew (mulT h W1) b1) W2) b2) W3) b3) F1 c1)) F2 c2)) F3 c3

/-- Scaling by the reciprocal column, adding the bias row and rectifying is the mean, the bias and the rectifier. -/
theorem hidden_eq (A : Mat 500000) (dst : (⟨S16000000, .i32⟩ : BufTy).Contents (Elt Ideal)) (b : Vec5) :
    relu (addRow (scaleRows A (factors dst)) (asRow b)) = meanRelu A (counts dst) b := by
  funext i
  obtain ⟨r, k, rfl⟩ : ∃ (r : Fin 500000) (k : Fin 5), i = ix2 r k := ⟨i 0, i 1, eq_ix2 i⟩
  show max (A (ix2 r k) * factors dst (ix2 r (0 : Fin 1)) + asRow b (ix2 (0 : Fin 1) k)) zeroWord
    = max (Ideal.div (A (ix2 r k)) (max (counts dst (ix1 r)) oneWord) + b (ix1 k)) zeroWord
  rw [factors_apply, asRow_apply, mul_reciprocal]

/-- A product with a transposed weight plus a bias row is a dense layer. -/
theorem dense_eq (X : Mat 500000) (W : Sq) (b : Vec5) : addRow (mulT X W) (asRow b) = dense X W b := by
  funext i
  obtain ⟨r, k, rfl⟩ : ∃ (r : Fin 500000) (k : Fin 5), i = ix2 r k := ⟨i 0, i 1, eq_ix2 i⟩
  show mulT X W (ix2 r k) + asRow b (ix2 (0 : Fin 1) k) = mulT X W (ix2 r k) + b (ix1 k)
  rw [asRow_apply]

end Cert.KernelIdeal.Network

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.Body.lean ====
/-
  What each kernel body computes from the blocks it loads, as row-wise operations on a block of 5000 rows.

  The first kernel stores `x · Wᵀ` of its block `x`. The two middle kernels first rebuild the hidden layer of their
  block — each row of the accumulated messages scaled by its node's factor, the bias row added, the rectifier — and
  store its product with the next transposed weight. The last kernel rebuilds the hidden layer the same way and runs
  it through three dense layers (product with a transposed weight plus a bias row), the first two rectified.
  Each matrix product is taken into a zero accumulator against a transposed 5 × 5 operand, so at the extended reals
  its entry `(p, o)` is `Σ k, lhs (p, k) · W (o, k)`; a shape cast to the same shape is the identity; a `[5000, 1]`
  column spread over the columns reads the column at its row; a `[1, 5]` row spread over the rows reads the row at
  its column.
-/
import proofs.«140499_j53781580480525_1_alg».proof.Proof.Gen.KernelIdeal.Skeleton
import proofs.«140499_j53781580480525_1_alg».proof.Proof.LibPlainMatmul
import proofs.«140499_j53781580480525_1_alg».proof.Proof.LibColumn
import proofs.«140499_j53781580480525_1_alg».proof.Proof.Layers
import Idealize.ShloMosaic.Lib.ValueLayout
import Idealize.ShloMosaic.Lib.Pipeline.Value

noncomputable section

namespace Cert.KernelIdeal.Body

open Cert.KernelIdeal Cert.KernelIdeal.Gen Cert.Gcn Idealize.ShloMosaic Idealize.ShloMosaic.ValueIdx
open scoped BigOperators

/-- The one dot record of the four bodies: `[5000, 5] × [5, 5] → [5000, 5]`, columns against rows. -/
abbrev blockDot : DotDims S5000x5 S5x5 S5000x5 := dot_S5000x5_S5x5_S5000x5_1_0_0_1_n_n

theorem lhs_row (i : S5000x5.Idx) (q : blockDot.contr.Idx) : (blockDot.lhsIdx i q 0).val = (i 0).val := by
  unfold DotDims.lhsIdx
  rw [dif_neg (show ¬(0 : Fin S5000x5.rank) ∈ blockDot.lhsBatch by decide),
    dif_pos (show (0 : Fin S5000x5.rank) ∈ blockDot.lhsNonContracting by decide)]
  rfl
theorem lhs_col (i : S5000x5.Idx) (q : blockDot.contr.Idx) : (blockDot.lhsIdx i q 1).val = (q ⟨0, by decide⟩).val :=
  blockDot.lhsIdx_val_of_single rfl i q
theorem rhs_row (i : S5000x5.Idx) (q : blockDot.contr.Idx) : (blockDot.rhsIdx i q 0).val = (q ⟨0, by decide⟩).val :=
  blockDot.rhsIdx_val_of_single rfl i q
theorem rhs_col (i : S5000x5.Idx) (q : blockDot.contr.Idx) : (blockDot.rhsIdx i q 1).val = (i 1).val := by
  unfold DotDims.rhsIdx
  rw [dif_neg (show ¬(1 : Fin S5x5.rank) ∈ blockDot.rhsBatch by decide),
    dif_pos (show (1 : Fin S5x5.rank) ∈ blockDot.rhsNonContracting by decide)]
  rfl

/-- The product of a block with a transposed weight, into the zero accumulator, is `mulT`. -/
theorem matmul_transposed (X : FVec Ideal S5000x5 .f32) (W : FVec Ideal S5x5 .f32) :
    matmul blockDot none X (transpose S5x5 [1, 0] W transposes_S5x5_p1_0_S5x5) (constant S5000x5 .f32 0x00000000#32)
      = mulT (n := 5000) X W := by
  funext i
  obtain ⟨p, o, rfl⟩ : ∃ (p : Fin 5000) (o : Fin 5), i = ix2 p o := ⟨i 0, i 1, eq_ix2 i⟩
  rw [Cert.LibPlainMatmul.matmul_zero_ix2 blockDot none rfl rfl lhs_row lhs_col rhs_row rhs_col]
  show _ = ∑ k : Fin 5, X (ix2 p k) * W (ix2 o k)
  refine Finset.sum_congr rfl fun k _ => ?_
  rw [transpose_ix2_apply]

/-- A bias row, cast to its own shape and spread over the rows, added to a block. -/
theorem add_bias (M : FVec Ideal S5000x5 .f32) (b : FVec Ideal S1x5 .f32) :
    addf M (broadcastTo S5000x5 (shapeCast S1x5 b shapeCasts_S1x5_S1x5) broadcasts_S1x5_S5000x5) = addRow (n := 5000) M b := by
  funext i
  obtain ⟨p, k, rfl⟩ : ∃ (p : Fin 5000) (k : Fin 5), i = ix2 p k := ⟨i 0, i 1, eq_ix2 i⟩
  rw [shapeCast_self]
  show M (ix2 p k) + broadcastTo S5000x5 b broadcasts_S1x5_S5000x5 (ix2 p k) = M (ix2 p k) + b (ix2 (0 : Fin 1) k)
  rw [broadcastTo_1b_ab_apply]

/-- The same followed by the rectifier. -/
theorem add_bias_relu (M : FVec Ideal S5000x5 .f32) (b : FVec Ideal S1x5 .f32) :
    maximumf (addf M (broadcastTo S5000x5 (shapeCast S1x5 b shapeCasts_S1x5_S1x5) broadcasts_S1x5_S5000x5))
        (broadcast S5000x5 (Scalar.ofBits (F := Ideal) .f32 0x00000000#32))
      = relu (addRow (n := 5000) M b) := by
  rw [add_bias]; rfl

/-- A block's rows scaled by the node factors' column. -/
theorem scale_rows (A : FVec Ideal S5000x5 .f32) (s : FVec Ideal S5000x1 .f32) :
    mulf (shapeCast S5000x5 A shapeCasts_S5000x5_S5000x5)
        (broadcastTo S5000x5 (shapeCast S5000x1 s shapeCasts_S5000x1_S5000x1) broadcasts_S5000x1_S5000x5)
      = scaleRows (n := 5000) A s := by
  funext i
  obtain ⟨p, k, rfl⟩ : ∃ (p : Fin 5000) (k : Fin 5), i = ix2 p k := ⟨i 0, i 1, eq_ix2 i⟩
  rw [shapeCast_self, shapeCast_self]
  show A (ix2 p k) * broadcastTo S5000x5 s broadcasts_S5000x1_S5000x5 (ix2 p k) = A (ix2 p k) * s (ix2 p (0 : Fin 1))
  rw [Cert.LibColumn.broadcastTo_a1_ab_apply]

/-- The first kernel's store: `x · Wᵀ`. -/
theorem pay0_eq (v0 : Vec Ideal S5000x5 .f32) (v1 : Vec Ideal S5x5 .f32) :
    k0_pay1 (F := Ideal) v0 v1 = mulT (n := 5000) v0 v1 := by
  unfold k0_pay1
  exact matmul_transposed v0 v1

/-- A middle kernel's store: the hidden layer of the block times the next transposed weight. -/
theorem pay1_eq (v0 : Vec Ideal S5000x5 .f32) (v2 : Vec Ideal S5000x1 .f32) (v6 : Vec Ideal S1x5 .f32) (v12 : Vec Ideal S5x5 .f32) :
    k1_pay1 (F := Ideal) v0 v2 v6 v12 = mulT (relu (addRow (scaleRows (n := 5000) v0 v2) v6)) v12 := by
  unfold k1_pay1
  dsimp only
  rw [scale_rows, add_bias_relu, matmul_transposed]

theorem pay2_eq (v0 : Vec Ideal S5000x5 .f32) (v2 : Vec Ideal S5000x1 .f32) (v6 : Vec Ideal S1x5 .f32) (v12 : Vec Ideal S5x5 .f32) :
    k2_pay1 (F := Ideal) v0 v2 v6 v12 = mulT (relu (addRow (scaleRows (n := 5000) v0 v2) v6)) v12 := by
  unfold k2_pay1
  dsimp only
  rw [scale_rows, add_bias_relu, matmul_transposed]

/-- The last kernel's store: the hidden layer of the block through the three dense layers. -/
theorem pay3_eq (v0 : Vec Ideal S5000x5 .f32) (v2 : Vec Ideal S5000x1 .f32) (v6 : Vec Ideal S1x5 .f32) (v12 : Vec Ideal S5x5 .f32)
    (v15 : Vec Ideal S1x5 .f32) (v21 : Vec Ideal S5x5 .f32) (v24 : Vec Ideal S1x5 .f32) (v30 : Vec Ideal S5x5 .f32) (v33 : Vec Ideal S1x5 .f32) :
    k3_pay1 (F := Ideal) (k3_pay2 v0 v2 v6 v12 v15 v21 v24 v30) (k3_pay3 v33)
      = addRow (mulT (relu (addRow (mulT (relu (addRow (mulT (relu (addRow (scaleRows (n := 5000) v0 v2) v6)) v12) v15)) v21) v24)) v30) v33 := by
  unfold k3_pay1 k3_pay2 k3_pay3
  dsimp only
  rw [scale_rows, add_bias_relu, matmul_transposed, add_bias_relu, matmul_transposed, add_bias_relu, matmul_transposed]
  exact add_bias _ v33

end Cert.KernelIdeal.Body

end
-- ==== Proof.Region0.lean ====
/-
  The first kernel's output array: `h · W₁ᵀ` of the arrays as the region finds them.

  The grid has 100 points; point `t` loads rows `5000 t … 5000 t + 4999` of the node features and the whole weight,
  and writes rows `5000 t … 5000 t + 4999` of the output. The body's store is `x · Wᵀ` of the loaded block, a row-wise
  operation, so what point `t` writes back is block `t` of `h · Wᵀ` of the whole arrays; the 100 blocks tile the
  500000 rows (row `r` lies in block `r / 5000`), so the array ends holding `h · Wᵀ`.
-/
import proofs.«140499_j53781580480525_1_alg».proof.Proof.Gen.KernelIdeal.Frame
import proofs.«140499_j53781580480525_1_alg».proof.Proof.Body

set_option maxRecDepth 16384

noncomputable section

namespace Cert.KernelIdeal.Region0

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

theorem lt_points (t : Fin cfg0.N) : t.val < 100 := lt_of_lt_of_eq t.isLt (N_0 : cfg0.N = 100)

/-- The printed index maps over the grid: the row windows sit at block row `t`, column block 0; the weight at (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of the node features holds the rows `5000 t + p` of the array. -/
theorem rows_features (c : Dev nD) (t : Fin cfg0.N) :
    RowsOf (blockRow t.val (lt_points t)) (iblk0 V c 0 t) (V c main_arg0) := fun p k => by
  obtain ⟨e0, e1, -, -, -, -⟩ := index_maps t
  show V c main_arg0 (((cfg0.win 0).blk t).view.emb (ix2 p k)) = V c main_arg0 (ix2 (blockRow t.val (lt_points t) p) k)
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 5 + 1 * k.val = k.val; rw [e1]; omega

/-- Point `t`'s block of the weight is the whole weight. -/
theorem whole_weight (c : Dev nD) (t : Fin cfg0.N) : iblk0 V c 1 t = V c main_arg3 := by
  obtain ⟨-, -, e0, e1, -, -⟩ := index_maps t
  funext j
  show V c main_arg3 (((cfg0.win 1).blk t).view.emb j) = V c main_arg3 j
  refine congrArg _ (funext fun a => Fin.ext ?_)
  match a with
  | ⟨0, _⟩ => show win0_1.index t (0 : Fin 2) * 5 + 1 * (j 0).val = (j 0).val; rw [e0]; omega
  | ⟨1, _⟩ => show win0_1.index t (1 : Fin 2) * 5 + 1 * (j 1).val = (j 1).val; rw [e1]; omega

/-- Where point `t`'s output block sits in the array. -/
theorem out_index (t : Fin cfg0.N) (p : Fin 5000) (o : Fin 5) :
    ((cfg0.win 2).blk t).view.emb (ix2 p o) = ix2 (blockRow t.val (lt_points t) p) o := by
  obtain ⟨-, -, -, -, e0, e1⟩ := index_maps t
  refine funext fun a => Fin.ext ?_
  match a with
  | ⟨0, _⟩ => show win0_2.index t (0 : Fin 2) * 5000 + 1 * p.val = t.val * 5000 + p.val; rw [e0]; omega
  | ⟨1, _⟩ => show win0_2.index t (1 : Fin 2) * 5 + 1 * o.val = o.val; rw [e1]; omega

/-- What point `t` writes back is block `t` of `h · Wᵀ`. -/
theorem flushed (c : Dev nD) (t : Fin cfg0.N) :
    (dat0 V c).flushed 2 t
      = ((cfg0.win 2).blk t).view.read (Elt Ideal) (mulT (n := 500000) (V c main_arg0) (V c main_arg3)) := by
  show (cfg0.win 2).cut (grid0.coords t) ((dat0 V c).after 2 t) = _
  rw [after0_2]
  unfold out0_2
  rw [View.canon_unit_zero zeros]
  simp only [View.ld_unit_zero (S := S5000x5) zeros, View.ld_unit_zero (S := S5x5) zeros]
  rw [Body.pay0_eq]
  funext j
  obtain ⟨p, o, rfl⟩ : ∃ (p : Fin 5000) (o : Fin 5), j = ix2 p o := ⟨j 0, j 1, eq_ix2 j⟩
  show mulT (n := 5000) (iblk0 V c 0 t) (iblk0 V c 1 t) (ix2 p o)
    = mulT (n := 500000) (V c main_arg0) (V c main_arg3) (((cfg0.win 2).blk t).view.emb (ix2 p o))
  rw [out_index t p o, whole_weight V c t]
  exact (rows_features V c t).mulT _ p o

/-- Membership in point `t`'s output block, by coordinates. -/
theorem mem_block (t : Fin cfg0.N) (i : S500000x5.Idx) :
    i ∈ ((cfg0.win 2).blk t).view.set ↔ ∀ a : Fin 2, win0_2.index t a * S5000x5.size a ≤ (i a).val ∧ (i a).val < win0_2.index t a * S5000x5.size a + S5000x5.size a := by
  show i ∈ ((View.whole main_v19).slice (win0_2.rect t)).set ↔ _
  rw [View.set_slice_whole, Rect.mem_set_unit]
  exact Iff.rfl

/-- Every row is in some point's block. -/
theorem covered (i : S500000x5.Idx) : ∃ t : Fin cfg0.N, (cfg0.win 2).flush t = true ∧ i ∈ ((cfg0.win 2).blk t).view.set := by
  have hi0 : (i 0).val < 500000 := (i 0).isLt
  have hi1 : (i 1).val < 5 := (i 1).isLt
  have hN : cfg0.N = 100 := N_0
  let t : Fin cfg0.N := ⟨(i 0).val / 5000, by rw [hN]; omega⟩
  obtain ⟨-, -, -, -, e0, e1⟩ := index_maps t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 5 ≤ (i 1).val ∧ (i 1).val < win0_2.index t (1 : Fin 2) * 5 + 5; rw [e1]; omega

/-- The output array after the region: `h · W₁ᵀ` of the arrays as the region finds them. -/
theorem array (c : Dev nD) :
    (dat0 V c).arrAt 2 cfg0.N = mulT (n := 500000) (V c main_arg0) (V c main_arg3) :=
  (dat0 V c).arrAt_eq_of_cover 2 _ (fun t _ => flushed V c t) covered

end Cert.KernelIdeal.Region0

end
-- ==== Proof.Region1.lean ====
/-
  A middle kernel's output array: the hidden layer rebuilt from the accumulated messages, times the next weight.

  The grid has 100 points; point `t` loads rows `5000 t … 5000 t + 4999` of the accumulated messages and of the
  column of node factors, the whole bias row and the whole weight, and writes the same rows of the output. The body
  scales each loaded row by its node's factor, adds the bias row, rectifies and multiplies by the transposed weight:
  row-wise operations, so what point `t` writes back is block `t` of the same operations applied to the whole
  arrays; the 100 blocks tile the 500000 rows, so the array ends holding them.
-/
import proofs.«140499_j53781580480525_1_alg».proof.Proof.Gen.KernelIdeal.Frame
import proofs.«140499_j53781580480525_1_alg».proof.Proof.Body

set_option maxRecDepth 16384

noncomputable section

namespace Cert.KernelIdeal.Region1

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

theorem lt_points (t : Fin cfg1.N) : t.val < 100 := lt_of_lt_of_eq t.isLt (N_1 : cfg1.N = 100)

/-- The printed index maps over the grid: the messages, the factors and the output sit at block row `t`. -/
theorem index_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_4.index t (0 : Fin 2) = t.val ∧ win1_4.index t (1 : Fin 2) = 0 :=
  (by decide +kernel : ∀ t : Fin grid1.N, _)
/-- The bias row and the weight are whole at every point. -/
theorem index_whole : ∀ t : Fin cfg1.N, win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Point `t`'s block of the accumulated messages holds the rows `5000 t + p` of the array. -/
theorem rows_messages (c : Dev nD) (t : Fin cfg1.N) :
    RowsOf (blockRow t.val (lt_points t)) (iblk1 V c 0 t) (V c main_v32) := fun p k => by
  obtain ⟨e0, e1, -, -, -, -⟩ := index_rows t
  show V c main_v32 (((cfg1.win 0).blk t).view.emb (ix2 p k)) = V c main_v32 (ix2 (blockRow t.val (lt_points t) p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 5 + 1 * k.val = k.val; rw [e1]; omega

/-- Point `t`'s block of the node factors holds the entries `5000 t + p` of the column. -/
theorem rows_factors (c : Dev nD) (t : Fin cfg1.N) (p : Fin 5000) :
    iblk1 V c 1 t (ix2 p (0 : Fin 1)) = V c main_v12 (ix2 (blockRow t.val (lt_points t) p) (0 : Fin 1)) := by
  obtain ⟨-, -, e0, e1, -, -⟩ := index_rows t
  show V c main_v12 (((cfg1.win 1).blk t).view.emb (ix2 p (0 : Fin 1))) = V c main_v12 (ix2 (blockRow t.val (lt_points t) p) (0 : Fin 1))
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- Point `t`'s block of the bias row is the whole row. -/
theorem whole_bias (c : Dev nD) (t : Fin cfg1.N) : iblk1 V c 2 t = V c main_v13 := by
  obtain ⟨e0, e1, -, -⟩ := index_whole t
  funext j
  show V c main_v13 (((cfg1.win 2).blk t).view.emb j) = V c main_v13 j
  refine congrArg _ (funext fun a => Fin.ext ?_)
  match a with
  | ⟨0, _⟩ => show win1_2.index t (0 : Fin 2) * 1 + 1 * (j 0).val = (j 0).val; rw [e0]; omega
  | ⟨1, _⟩ => show win1_2.index t (1 : Fin 2) * 5 + 1 * (j 1).val = (j 1).val; rw [e1]; omega

/-- Point `t`'s block of the weight is the whole weight. -/
theorem whole_weight (c : Dev nD) (t : Fin cfg1.N) : iblk1 V c 3 t = V c main_arg5 := by
  obtain ⟨-, -, e0, e1⟩ := index_whole t
  funext j
  show V c main_arg5 (((cfg1.win 3).blk t).view.emb j) = V c main_arg5 j
  refine congrArg _ (funext fun a => Fin.ext ?_)
  match a with
  | ⟨0, _⟩ => show win1_3.index t (0 : Fin 2) * 5 + 1 * (j 0).val = (j 0).val; rw [e0]; omega
  | ⟨1, _⟩ => show win1_3.index t (1 : Fin 2) * 5 + 1 * (j 1).val = (j 1).val; rw [e1]; omega

/-- Where point `t`'s output block sits in the array. -/
theorem out_index (t : Fin cfg1.N) (p : Fin 5000) (o : Fin 5) :
    ((cfg1.win 4).blk t).view.emb (ix2 p o) = ix2 (blockRow t.val (lt_points t) p) o := by
  obtain ⟨-, -, -, -, e0, e1⟩ := index_rows t
  refine funext fun a => Fin.ext ?_
  match a with
  | ⟨0, _⟩ => show win1_4.index t (0 : Fin 2) * 5000 + 1 * p.val = t.val * 5000 + p.val; rw [e0]; omega
  | ⟨1, _⟩ => show win1_4.index t (1 : Fin 2) * 5 + 1 * o.val = o.val; rw [e1]; omega

/-- The region's result as one function of the arrays it finds: the hidden layer times the transposed weight. -/
abbrev result (c : Dev nD) : Mat 500000 :=
  mulT (relu (addRow (scaleRows (n := 500000) (V c main_v32) (V c main_v12)) (V c main_v13))) (V c main_arg5)

/-- What point `t` writes back is block `t` of `result`. -/
theorem flushed (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero zeros]
  simp only [View.ld_unit_zero (S := S5000x5) zeros, View.ld_unit_zero (S := S5000x1) zeros,
    View.ld_unit_zero (S := S1x5) zeros, View.ld_unit_zero (S := S5x5) zeros]
  rw [Body.pay1_eq]
  funext j
  obtain ⟨p, o, rfl⟩ : ∃ (p : Fin 5000) (o : Fin 5), j = ix2 p o := ⟨j 0, j 1, eq_ix2 j⟩
  show mulT (relu (addRow (scaleRows (n := 5000) (iblk1 V c 0 t) (iblk1 V c 1 t)) (iblk1 V c 2 t))) (iblk1 V c 3 t) (ix2 p o)
    = result V c (((cfg1.win 4).blk t).view.emb (ix2 p o))
  rw [out_index t p o, whole_bias V c t, whole_weight V c t]
  exact ((((rows_messages V c t).scaleRows (rows_factors V c t)).addRow _).relu.mulT _) p o

/-- Membership in point `t`'s output block, by coordinates. -/
theorem mem_block (t : Fin cfg1.N) (i : S500000x5.Idx) :
    i ∈ ((cfg1.win 4).blk t).view.set ↔ ∀ a : Fin 2, win1_4.index t a * S5000x5.size a ≤ (i a).val ∧ (i a).val < win1_4.index t a * S5000x5.size a + S5000x5.size a := by
  show i ∈ ((View.whole main_v33).slice (win1_4.rect t)).set ↔ _
  rw [View.set_slice_whole, Rect.mem_set_unit]
  exact Iff.rfl

/-- Every row is in some point's block. -/
theorem covered (i : S500000x5.Idx) : ∃ t : Fin cfg1.N, (cfg1.win 4).flush t = true ∧ i ∈ ((cfg1.win 4).blk t).view.set := by
  have hi0 : (i 0).val < 500000 := (i 0).isLt
  have hi1 : (i 1).val < 5 := (i 1).isLt
  have hN : cfg1.N = 100 := N_1
  let t : Fin cfg1.N := ⟨(i 0).val / 5000, by rw [hN]; omega⟩
  obtain ⟨-, -, -, -, e0, e1⟩ := index_rows t
  have ht : t.val = (i 0).val / 5000 := rfl
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 5 ≤ (i 1).val ∧ (i 1).val < win1_4.index t (1 : Fin 2) * 5 + 5; rw [e1]; omega

/-- The output array after the region. -/
theorem array (c : Dev nD) : (dat1 V c).arrAt 4 cfg1.N = result V c :=
  (dat1 V c).arrAt_eq_of_cover 4 _ (fun t _ => flushed V c t) covered

end Cert.KernelIdeal.Region1

end
-- ==== Proof.Region2.lean ====
/-
  A middle kernel's output array: the hidden layer rebuilt from the accumulated messages, times the next weight.

  The grid has 100 points; point `t` loads rows `5000 t … 5000 t + 4999` of the accumulated messages and of the
  column of node factors, the whole bias row and the whole weight, and writes the same rows of the output. The body
  scales each loaded row by its node's factor, adds the bias row, rectifies and multiplies by the transposed weight:
  row-wise operations, so what point `t` writes back is block `t` of the same operations applied to the whole
  arrays; the 100 blocks tile the 500000 rows, so the array ends holding them.
-/
import proofs.«140499_j53781580480525_1_alg».proof.Proof.Gen.KernelIdeal.Frame
import proofs.«140499_j53781580480525_1_alg».proof.Proof.Body

set_option maxRecDepth 16384

noncomputable section

namespace Cert.KernelIdeal.Region2

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

theorem lt_points (t : Fin cfg2.N) : t.val < 100 := lt_of_lt_of_eq t.isLt (N_2 : cfg2.N = 100)

/-- The printed index maps over the grid: the messages, the factors and the output sit at block row `t`. -/
theorem index_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_4.index t (0 : Fin 2) = t.val ∧ win2_4.index t (1 : Fin 2) = 0 :=
  (by decide +kernel : ∀ t : Fin grid2.N, _)
/-- The bias row and the weight are whole at every point. -/
theorem index_whole : ∀ t : Fin cfg2.N, win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Point `t`'s block of the accumulated messages holds the rows `5000 t + p` of the array. -/
theorem rows_messages (c : Dev nD) (t : Fin cfg2.N) :
    RowsOf (blockRow t.val (lt_points t)) (iblk2 V c 0 t) (V c main_v46) := fun p k => by
  obtain ⟨e0, e1, -, -, -, -⟩ := index_rows t
  show V c main_v46 (((cfg2.win 0).blk t).view.emb (ix2 p k)) = V c main_v46 (ix2 (blockRow t.val (lt_points t) p) k)
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 5 + 1 * k.val = k.val; rw [e1]; omega

/-- Point `t`'s block of the node factors holds the entries `5000 t + p` of the column. -/
theorem rows_factors (c : Dev nD) (t : Fin cfg2.N) (p : Fin 5000) :
    iblk2 V c 1 t (ix2 p (0 : Fin 1)) = V c main_v12 (ix2 (blockRow t.val (lt_points t) p) (0 : Fin 1)) := by
  obtain ⟨-, -, e0, e1, -, -⟩ := index_rows t
  show V c main_v12 (((cfg2.win 1).blk t).view.emb (ix2 p (0 : Fin 1))) = V c main_v12 (ix2 (blockRow t.val (lt_points t) p) (0 : Fin 1))
  refine congrArg _ (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

/-- Point `t`'s block of the bias row is the whole row. -/
theorem whole_bias (c : Dev nD) (t : Fin cfg2.N) : iblk2 V c 2 t = V c main_v14 := by
  obtain ⟨e0, e1, -, -⟩ := index_whole t
  funext j
  show V c main_v14 (((cfg2.win 2).blk t).view.emb j) = V c main_v14 j
  refine congrArg _ (funext fun a => Fin.ext ?_)
  match a with
  | ⟨0, _⟩ => show win2_2.index t (0 : Fin 2) * 1 + 1 * (j 0).val = (j 0).val; rw [e0]; omega
  | ⟨1, _⟩ => show win2_2.index t (1 : Fin 2) * 5 + 1 * (j 1).val = (j 1).val; rw [e1]; omega

/-- Point `t`'s block of the weight is the whole weight. -/
theorem whole_weight (c : Dev nD) (t : Fin cfg2.N) : iblk2 V c 3 t = V c main_arg7 := by
  obtain ⟨-, -, e0, e1⟩ := index_whole t
  funext j
  show V c main_arg7 (((cfg2.win 3).blk t).view.emb j) = V c main_arg7 j
  refine congrArg _ (funext fun a => Fin.ext ?_)
  match a with
  | ⟨0, _⟩ => show win2_3.index t (0 : Fin 2) * 5 + 1 * (j 0).val = (j 0).val; rw [e0]; omega
  | ⟨1, _⟩ => show win2_3.index t (1 : Fin 2) * 5 + 1 * (j 1).val = (j 1).val; rw [e1]; omega

/-- Where point `t`'s output block sits in the array. -/
theorem out_index (t : Fin cfg2.N) (p : Fin 5000) (o : Fin 5) :
    ((cfg2.win 4).blk t).view.emb (ix2 p o) = ix2 (blockRow t.val (lt_points t) p) o := by
  obtain ⟨-, -, -, -, e0, e1⟩ := index_rows t
  refine funext fun a => Fin.ext ?_
  match a with
  | ⟨0, _⟩ => show win2_4.index t (0 : Fin 2) * 5000 + 1 * p.val = t.val * 5000 + p.val; rw [e0]; omega
  | ⟨1, _⟩ => show win2_4.index t (1 : Fin 2) * 5 + 1 * o.val = o.val; rw [e1]; omega

/-- The region's result as one function of the arrays it finds: the hidden layer times the transposed weight. -/
abbrev result (c : Dev nD) : Mat 500000 :=
  mulT (relu (addRow (scaleRows (n := 500000) (V c main_v46) (V c main_v12)) (V c main_v14))) (V c main_arg7)

/-- What point `t` writes back is block `t` of `result`. -/
theorem flushed (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero zeros]
  simp only [View.ld_unit_zero (S := S5000x5) zeros, View.ld_unit_zero (S := S5000x1) zeros,
    View.ld_unit_zero (S := S1x5) zeros, View.ld_unit_zero (S := S5x5) zeros]
  rw [Body.pay2_eq]
  funext j
  obtain ⟨p, o, rfl⟩ : ∃ (p : Fin 5000) (o : Fin 5), j = ix2 p o := ⟨j 0, j 1, eq_ix2 j⟩
  show mulT (relu (addRow (scaleRows (n := 5000) (iblk2 V c 0 t) (iblk2 V c 1 t)) (iblk2 V c 2 t))) (iblk2 V c 3 t) (ix2 p o)
    = result V c (((cfg2.win 4).blk t).view.emb (ix2 p o))
  rw [out_index t p o, whole_bias V c t, whole_weight V c t]
  exact ((((rows_messages V c t).scaleRows (rows_factors V c t)).addRow _).relu.mulT _) p o

/-- Membership in point `t`'s output block, by coordinates. -/
theorem mem_block (t : Fin cfg2.N) (i : S500000x5.Idx) :
    i ∈ ((cfg2.win 4).blk t).view.set ↔ ∀ a : Fin 2, win2_4.index t a * S5000x5.size a ≤ (i a).val ∧ (i a).val < win2_4.index t a * S5000x5.size a + S5000x5.size a := by
  show i ∈ ((View.whole main_v47).slice (win2_4.rect t)).set ↔ _
  rw [View.set_slice_whole, Rect.mem_set_unit]
  exact Iff.rfl

/-- Every row is in some point's block. -/
theorem covered (i : S500000x5.Idx) : ∃ t : Fin cfg2.N, (cfg2.win 4).flush t = true ∧ i ∈ ((cfg2.win 4).blk t).view.set := by
  have hi0 : (i 0).val < 500000 := (i 0).isLt
  have hi1 : (i 1).val < 5 := (i 1).isLt
  have hN : cfg2.N = 100 := N_2
  let t : Fin cfg2.N := ⟨(i 0).val / 5000, by rw [hN]; omega⟩
  obtain ⟨-, -, -, -, e0, e1⟩ := index_rows t
  have ht : t.val = (i 0).val / 5000 := rfl
  refine ⟨t, flush2_4 t, ?_⟩
  rw [mem_block]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 5 ≤ (i 1).val ∧ (i 1).val < win2_4.index t (1 : Fin 2) * 5 + 5; rw [e1]; omega

/-- The output array after the region. -/
theorem array (c : Dev nD) : (dat2 V c).arrAt 4 cfg2.N = result V c :=
  (dat2 V c).arrAt_eq_of_cover 4 _ (fun t _ => flushed V c t) covered

end Cert.KernelIdeal.Region2

end
-- ==== Proof.Region3.lean ====
/-
  The last kernel's output array: the hidden layer rebuilt from the accumulated messages, through three dense layers.

  The grid has 100 points; point `t` loads rows `5000 t … 5000 t + 4999` of the accumulated messages and of the
  column of node factors, and the whole of the four bias rows and three weights, and writes the same rows of the
  output. The body scales each loaded row by its node's factor, adds the bias row and rectifies, then applies three
  dense layers (product with a transposed weight plus a bias row), the first two rectified: row-wise operations, so
  what point `t` writes back is block `t` of the same operations applied to the whole arrays; the 100 blocks tile
  the 500000 rows, so the array ends holding them.
-/
import proofs.«140499_j53781580480525_1_alg».proof.Proof.Gen.KernelIdeal.Frame
import proofs.«140499_j53781580480525_1_alg».proof.Proof.Body

set_option maxRecDepth 16384

noncomputable section

namespace Cert.KernelIdeal.Region3

open Cert.KernelIdeal Cert.KernelIdeal.Gen Cert.Gcn Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

theorem lt_points (t : Fin cfg3.N) : t.val < 100 := lt_of_lt_of_eq t.isLt (N_3 : cfg3.N = 100)

/-- The printed index maps over the grid: the messages, the factors and the output sit at block row `t`. -/
theorem index_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_9.index t (0 : Fin 2) = t.val ∧ win3_9.index t (1 : Fin 2) = 0 :=
  (by decide +kernel : ∀ t : Fin grid3.N, _)
/-- The four bias rows are whole at every point. -/
theorem index_biases : ∀ t : Fin cfg3.N, win3_2.index t (0 : Fin 2) = 0 ∧ win3_2.index t (1 : Fin 2) = 0
    ∧ win3_4.index t (0 : Fin 2) = 0 ∧ win3_4.index t (1 : Fin 2) = 0
    ∧ win3_6.index t (0 : Fin 2) = 0 ∧ win3_6.index t (1 : Fin 2) = 0
    ∧ win3_8.index t (0 : Fin 2) = 0 ∧ win3_8.index t (1 : Fin 2) = 0 :=
  (by decide +kernel : ∀ t : Fin grid3.N, _)
/-- The three weights are whole at every point. -/
theorem index_weights : ∀ t : Fin cfg3.N, win3_3.index t (0 : Fin 2) = 0 ∧ win3_3.index t (1 : Fin 2) = 0
    ∧ win3_5.index t (0 : Fin 2) = 0 ∧ win3_5.index t (1 : Fin 2) = 0
    ∧ win3_7.index t (0 : Fin 2) = 0 ∧ win3_7.index t (1 : Fin 2) = 0 :=
  (by decide +kernel : ∀ t : Fin grid3.N, _)

/-- Point `t`'s block of the accumulated messages holds the rows `5000 t + p` of the array. -/
theorem rows_messages (c : Dev nD) (t : Fin cfg3.N) :
    RowsOf (blockRow t.val (lt_points t)) (iblk3 V c 0 t) (V c main_v60) := fun p k => by
  obtain ⟨e0, e1, -, -, -, -⟩ := index_rows t
  show V c main_v60 (((cfg3.win 0).blk t).view.emb (ix2 p k)) = V c main_v60 (ix2 (blockRow t.val (lt_points t) p) k)
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 5 + 1 * k.val = k.val; rw [e1]; omega

/-- Point `t`'s block of the node factors holds the entries `5000 t + p` of the column. -/
theorem rows_factors (c : Dev nD) (t : Fin cfg3.N) (p : Fin 5000) :
    iblk3 V c 1 t (ix2 p (0 : Fin 1)) = V c main_v12 (ix2 (blockRow t.val (lt_points t) p) (0 : Fin 1)) := by
  obtain ⟨-, -, e0, e1, -, -⟩ := index_rows t
  show V c main_v12 (((cfg3.win 1).blk t).view.emb (ix2 p (0 : Fin 1))) = V c main_v12 (ix2 (blockRow t.val (lt_points t) p) (0 : Fin 1))
  refine congrArg _ (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 1 + 1 * 0 = 0; rw [e1]

/-- Point `t`'s block of the convolution's bias row is the whole row. -/
theorem whole_bias (c : Dev nD) (t : Fin cfg3.N) : iblk3 V c 2 t = V c main_v15 := by
  obtain ⟨e0, e1, -, -, -, -, -, -⟩ := index_biases t
  funext j
  show V c main_v15 (((cfg3.win 2).blk t).view.emb j) = V c main_v15 j
  refine congrArg _ (funext fun a => Fin.ext ?_)
  match a with
  | ⟨0, _⟩ => show win3_2.index t (0 : Fin 2) * 1 + 1 * (j 0).val = (j 0).val; rw [e0]; omega
  | ⟨1, _⟩ => show win3_2.index t (1 : Fin 2) * 5 + 1 * (j 1).val = (j 1).val; rw [e1]; omega

/-- Point `t`'s block of the first dense layer's weight is the whole weight. -/
theorem whole_weight1 (c : Dev nD) (t : Fin cfg3.N) : iblk3 V c 3 t = V c main_arg9 := by
  obtain ⟨e0, e1, -, -, -, -⟩ := index_weights t
  funext j
  show V c main_arg9 (((cfg3.win 3).blk t).view.emb j) = V c main_arg9 j
  refine congrArg _ (funext fun a => Fin.ext ?_)
  match a with
  | ⟨0, _⟩ => show win3_3.index t (0 : Fin 2) * 5 + 1 * (j 0).val = (j 0).val; rw [e0]; omega
  | ⟨1, _⟩ => show win3_3.index t (1 : Fin 2) * 5 + 1 * (j 1).val = (j 1).val; rw [e1]; omega

/-- Point `t`'s block of the first dense layer's bias row is the whole row. -/
theorem whole_bias1 (c : Dev nD) (t : Fin cfg3.N) : iblk3 V c 4 t = V c main_v16 := by
  obtain ⟨-, -, e0, e1, -, -, -, -⟩ := index_biases t
  funext j
  show V c main_v16 (((cfg3.win 4).blk t).view.emb j) = V c main_v16 j
  refine congrArg _ (funext fun a => Fin.ext ?_)
  match a with
  | ⟨0, _⟩ => show win3_4.index t (0 : Fin 2) * 1 + 1 * (j 0).val = (j 0).val; rw [e0]; omega
  | ⟨1, _⟩ => show win3_4.index t (1 : Fin 2) * 5 + 1 * (j 1).val = (j 1).val; rw [e1]; omega

/-- Point `t`'s block of the second dense layer's weight is the whole weight. -/
theorem whole_weight2 (c : Dev nD) (t : Fin cfg3.N) : iblk3 V c 5 t = V c main_arg11 := by
  obtain ⟨-, -, e0, e1, -, -⟩ := index_weights t
  funext j
  show V c main_arg11 (((cfg3.win 5).blk t).view.emb j) = V c main_arg11 j
  refine congrArg _ (funext fun a => Fin.ext ?_)
  match a with
  | ⟨0, _⟩ => show win3_5.index t (0 : Fin 2) * 5 + 1 * (j 0).val = (j 0).val; rw [e0]; omega
  | ⟨1, _⟩ => show win3_5.index t (1 : Fin 2) * 5 + 1 * (j 1).val = (j 1).val; rw [e1]; omega

/-- Point `t`'s block of the second dense layer's bias row is the whole row. -/
theorem whole_bias2 (c : Dev nD) (t : Fin cfg3.N) : iblk3 V c 6 t = V c main_v17 := by
  obtain ⟨-, -, -, -, e0, e1, -, -⟩ := index_biases t
  funext j
  show V c main_v17 (((cfg3.win 6).blk t).view.emb j) = V c main_v17 j
  refine congrArg _ (funext fun a => Fin.ext ?_)
  match a with
  | ⟨0, _⟩ => show win3_6.index t (0 : Fin 2) * 1 + 1 * (j 0).val = (j 0).val; rw [e0]; omega
  | ⟨1, _⟩ => show win3_6.index t (1 : Fin 2) * 5 + 1 * (j 1).val = (j 1).val; rw [e1]; omega

/-- Point `t`'s block of the third dense layer's weight is the whole weight. -/
theorem whole_weight3 (c : Dev nD) (t : Fin cfg3.N) : iblk3 V c 7 t = V c main_arg13 := by
  obtain ⟨-, -, -, -, e0, e1⟩ := index_weights t
  funext j
  show V c main_arg13 (((cfg3.win 7).blk t).view.emb j) = V c main_arg13 j
  refine congrArg _ (funext fun a => Fin.ext ?_)
  match a with
  | ⟨0, _⟩ => show win3_7.index t (0 : Fin 2) * 5 + 1 * (j 0).val = (j 0).val; rw [e0]; omega
  | ⟨1, _⟩ => show win3_7.index t (1 : Fin 2) * 5 + 1 * (j 1).val = (j 1).val; rw [e1]; omega

/-- Point `t`'s block of the third dense layer's bias row is the whole row. -/
theorem whole_bias3 (c : Dev nD) (t : Fin cfg3.N) : iblk3 V c 8 t = V c main_v18 := by
  obtain ⟨-, -, -, -, -, -, e0, e1⟩ := index_biases t
  funext j
  show V c main_v18 (((cfg3.win 8).blk t).view.emb j) = V c main_v18 j
  refine congrArg _ (funext fun a => Fin.ext ?_)
  match a with
  | ⟨0, _⟩ => show win3_8.index t (0 : Fin 2) * 1 + 1 * (j 0).val = (j 0).val; rw [e0]; omega
  | ⟨1, _⟩ => show win3_8.index t (1 : Fin 2) * 5 + 1 * (j 1).val = (j 1).val; rw [e1]; omega

/-- Where point `t`'s output block sits in the array. -/
theorem out_index (t : Fin cfg3.N) (p : Fin 5000) (o : Fin 5) :
    ((cfg3.win 9).blk t).view.emb (ix2 p o) = ix2 (blockRow t.val (lt_points t) p) o := by
  obtain ⟨-, -, -, -, e0, e1⟩ := index_rows t
  refine funext fun a => Fin.ext ?_
  match a with
  | ⟨0, _⟩ => show win3_9.index t (0 : Fin 2) * 5000 + 1 * p.val = t.val * 5000 + p.val; rw [e0]; omega
  | ⟨1, _⟩ => show win3_9.index t (1 : Fin 2) * 5 + 1 * o.val = o.val; rw [e1]; omega

/-- The region's result as one function of the arrays it finds: the hidden layer through the three dense layers. -/
abbrev result (c : Dev nD) : Mat 500000 :=
  addRow (mulT (relu (addRow (mulT (relu (addRow (mulT (relu (addRow (scaleRows (n := 500000) (V c main_v60) (V c main_v12))
    (V c main_v15))) (V c main_arg9)) (V c main_v16))) (V c main_arg11)) (V c main_v17))) (V c main_arg13)) (V c main_v18)

/-- What point `t` writes back is block `t` of `result`. -/
theorem flushed (c : Dev nD) (t : Fin cfg3.N) :
    (dat3 V c).flushed 9 t = ((cfg3.win 9).blk t).view.read (Elt Ideal) (result V c) := by
  show (cfg3.win 9).cut (grid3.coords t) ((dat3 V c).after 9 t) = _
  rw [after3_9]
  unfold out3_9
  rw [View.canon_unit_zero zeros]
  simp only [View.ld_unit_zero (S := S5000x5) zeros, View.ld_unit_zero (S := S5000x1) zeros,
    View.ld_unit_zero (S := S1x5) zeros, View.ld_unit_zero (S := S5x5) zeros]
  rw [Body.pay3_eq]
  funext j
  obtain ⟨p, o, rfl⟩ : ∃ (p : Fin 5000) (o : Fin 5), j = ix2 p o := ⟨j 0, j 1, eq_ix2 j⟩
  show addRow (mulT (relu (addRow (mulT (relu (addRow (mulT (relu (addRow (scaleRows (n := 5000) (iblk3 V c 0 t) (iblk3 V c 1 t))
      (iblk3 V c 2 t))) (iblk3 V c 3 t)) (iblk3 V c 4 t))) (iblk3 V c 5 t)) (iblk3 V c 6 t))) (iblk3 V c 7 t)) (iblk3 V c 8 t) (ix2 p o)
    = result V c (((cfg3.win 9).blk t).view.emb (ix2 p o))
  rw [out_index t p o, whole_bias V c t, whole_weight1 V c t, whole_bias1 V c t, whole_weight2 V c t, whole_bias2 V c t,
    whole_weight3 V c t, whole_bias3 V c t]
  exact (((((((((rows_messages V c t).scaleRows (rows_factors V c t)).addRow _).relu.mulT _).addRow _).relu.mulT _).addRow _).relu.mulT _).addRow _) p o

/-- Membership in point `t`'s output block, by coordinates. -/
theorem mem_block (t : Fin cfg3.N) (i : S500000x5.Idx) :
    i ∈ ((cfg3.win 9).blk t).view.set ↔ ∀ a : Fin 2, win3_9.index t a * S5000x5.size a ≤ (i a).val ∧ (i a).val < win3_9.index t a * S5000x5.size a + S5000x5.size a := by
  show i ∈ ((View.whole main_v61).slice (win3_9.rect t)).set ↔ _
  rw [View.set_slice_whole, Rect.mem_set_unit]
  exact Iff.rfl

/-- Every row is in some point's block. -/
theorem covered (i : S500000x5.Idx) : ∃ t : Fin cfg3.N, (cfg3.win 9).flush t = true ∧ i ∈ ((cfg3.win 9).blk t).view.set := by
  have hi0 : (i 0).val < 500000 := (i 0).isLt
  have hi1 : (i 1).val < 5 := (i 1).isLt
  have hN : cfg3.N = 100 := N_3
  let t : Fin cfg3.N := ⟨(i 0).val / 5000, by rw [hN]; omega⟩
  obtain ⟨-, -, -, -, e0, e1⟩ := index_rows t
  have ht : t.val = (i 0).val / 5000 := rfl
  refine ⟨t, flush3_9 t, ?_⟩
  rw [mem_block]
  intro a
  match a with
  | ⟨0, _⟩ => show win3_9.index t (0 : Fin 2) * 5000 ≤ (i 0).val ∧ (i 0).val < win3_9.index t (0 : Fin 2) * 5000 + 5000; rw [e0, ht]; omega
  | ⟨1, _⟩ => show win3_9.index t (1 : Fin 2) * 5 ≤ (i 1).val ∧ (i 1).val < win3_9.index t (1 : Fin 2) * 5 + 5; rw [e1]; omega

/-- The output array after the region. -/
theorem array (c : Dev nD) : (dat3 V c).arrAt 9 cfg3.N = result V c :=
  (dat3 V c).arrAt_eq_of_cover 9 _ (fun t _ => flushed V c t) covered

end Cert.KernelIdeal.Region3

end
-- ==== Proof.KernelValue.lean ====
/-
  What the kernel program's result buffer holds at the last boundary: the network of the launch arguments.

  Walking the program's boundaries: the host stretch before the first region cuts the edge list into sources and
  targets, counts the edges per node, forms the reciprocal column and lays the six biases out as rows; none of these
  buffers is written again, so every later region finds them as they were (`Boundaries.kept`). Each region's output
  array is the row-wise function of the arrays it finds (`Region0.array` … `Region3.array`), and each later stretch
  feeds the previous region's output through one message pass. Rewriting the reciprocal spelling into the mean
  (`Network.hidden_eq`) and the bias rows into dense layers (`Network.dense_eq`) gives `Network.network`.
-/
import proofs.«140499_j53781580480525_1_alg».proof.Proof.Boundaries
import proofs.«140499_j53781580480525_1_alg».proof.Proof.Network
import proofs.«140499_j53781580480525_1_alg».proof.Proof.Region0
import proofs.«140499_j53781580480525_1_alg».proof.Proof.Region1
import proofs.«140499_j53781580480525_1_alg».proof.Proof.Region2
import proofs.«140499_j53781580480525_1_alg».proof.Proof.Region3
import Idealize.ShloMosaic.Lib.StableHlo.Run

set_option maxRecDepth 16384

noncomputable section

namespace Cert.KernelIdeal.KernelValue

open Cert.KernelIdeal Cert.KernelIdeal.Gen Cert.Gcn Cert.KernelIdeal.Glue Cert.KernelIdeal.Network Cert.KernelIdeal.Boundaries
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## At the first region's entry -/

/-- A buffer the first stretch does not write holds its launch contents. -/
theorem launch_at1 (c : Dev nD) (b : Ref sig .tc) (hb : b ∉ written0) :
    W1 m ρ c (Proc.devRef .tc b) = m ((c : Thread nD τ).loc b) :=
  (stretch0_keeps (W0 m ρ c) b hb).trans rfl

theorem sources_at1 (c : Dev nD) :
    W1 m ρ c (Proc.devRef .tc main_v1) = sources (m ((c : Thread nD τ).loc main_arg1)) := by
  show StableHlo.after hostOps0 (W0 m ρ c) (Proc.devRef .tc main_v1) = _
  dsimp only [hostOps0]
  after_results
  rfl

theorem targets_at1 (c : Dev nD) :
    W1 m ρ c (Proc.devRef .tc main_v3) = targets (m ((c : Thread nD τ).loc main_arg1)) := by
  show StableHlo.after hostOps0 (W0 m ρ c) (Proc.devRef .tc main_v3) = _
  dsimp only [hostOps0]
  after_results
  rfl

theorem factors_at1 (c : Dev nD) :
    W1 m ρ c (Proc.devRef .tc main_v12) = factors (targets (m ((c : Thread nD τ).loc main_arg1))) := by
  show StableHlo.after hostOps0 (W0 m ρ c) (Proc.devRef .tc main_v12) = _
  dsimp only [hostOps0]
  after_results
  rfl

theorem bias1_at1 (c : Dev nD) : W1 m ρ c (Proc.devRef .tc main_v13) = asRow (m ((c : Thread nD τ).loc main_arg4)) := by
  show StableHlo.after hostOps0 (W0 m ρ c) (Proc.devRef .tc main_v13) = _
  dsimp only [hostOps0]
  after_results
  rfl

theorem bias2_at1 (c : Dev nD) : W1 m ρ c (Proc.devRef .tc main_v14) = asRow (m ((c : Thread nD τ).loc main_arg6)) := by
  show StableHlo.after hostOps0 (W0 m ρ c) (Proc.devRef .tc main_v14) = _
  dsimp only [hostOps0]
  after_results
  rfl

theorem bias3_at1 (c : Dev nD) : W1 m ρ c (Proc.devRef .tc main_v15) = asRow (m ((c : Thread nD τ).loc main_arg8)) := by
  show StableHlo.after hostOps0 (W0 m ρ c) (Proc.devRef .tc main_v15) = _
  dsimp only [hostOps0]
  after_results
  rfl

theorem fcBias1_at1 (c : Dev nD) : W1 m ρ c (Proc.devRef .tc main_v16) = asRow (m ((c : Thread nD τ).loc main_arg10)) := by
  show StableHlo.after hostOps0 (W0 m ρ c) (Proc.devRef .tc main_v16) = _
  dsimp only [hostOps0]
  after_results
  rfl

theorem fcBias2_at1 (c : Dev nD) : W1 m ρ c (Proc.devRef .tc main_v17) = asRow (m ((c : Thread nD τ).loc main_arg12)) := by
  show StableHlo.after hostOps0 (W0 m ρ c) (Proc.devRef .tc main_v17) = _
  dsimp only [hostOps0]
  after_results
  rfl

theorem fcBias3_at1 (c : Dev nD) : W1 m ρ c (Proc.devRef .tc main_v18) = asRow (m ((c : Thread nD τ).loc main_arg14)) := by
  show StableHlo.after hostOps0 (W0 m ρ c) (Proc.devRef .tc main_v18) = _
  dsimp only [hostOps0]
  after_results
  rfl

/-! ## The first region -/

/-- The first region's output: `h · W₁ᵀ` of the launch arguments. -/
theorem out0 (c : Dev nD) :
    W2 m ρ c (Proc.devRef .tc main_v19)
      = mulT (n := 500000) (m ((c : Thread nD τ).loc main_arg0)) (m ((c : Thread nD τ).loc main_arg3)) := by
  refine (W2_arr m ρ c 2).trans ?_
  rw [Region0.array (V1 m ρ) c]
  rw [show V1 m ρ c main_arg0 = m ((c : Thread nD τ).loc main_arg0) from launch_at1 m ρ c main_arg0 (by decide),
    show V1 m ρ c main_arg3 = m ((c : Thread nD τ).loc main_arg3) from launch_at1 m ρ c main_arg3 (by decide)]

/-! ## The second region -/

/-- The messages the second region finds: one pass over the first region's output. -/
theorem messages1 (c : Dev nD) :
    V3 m ρ c main_v32
      = aggregate (sources (m ((c : Thread nD τ).loc main_arg1))) (targets (m ((c : Thread nD τ).loc main_arg1)))
          (m ((c : Thread nD τ).loc main_arg2))
          (mulT (n := 500000) (m ((c : Thread nD τ).loc main_arg0)) (m ((c : Thread nD τ).loc main_arg3))) := by
  show StableHlo.after hostOps1 (W2 m ρ c) (Proc.devRef .tc main_v32) = _
  dsimp only [hostOps1]
  after_results_simp
  rw [out0 m ρ c,
    (kept m ρ c main_v1 (by decide) (by decide) (by decide) (by decide) (by decide) (by decide)).1,
    (kept m ρ c main_v3 (by decide) (by decide) (by decide) (by decide) (by decide) (by decide)).1,
    (kept m ρ c main_arg2 (by decide) (by decide) (by decide) (by decide) (by decide) (by decide)).1,
    sources_at1, targets_at1, launch_at1 m ρ c main_arg2 (by decide)]
  rfl

theorem factors3 (c : Dev nD) : V3 m ρ c main_v12 = factors (targets (m ((c : Thread nD τ).loc main_arg1))) :=
  (kept m ρ c main_v12 (by decide) (by decide) (by decide) (by decide) (by decide) (by decide)).2.1.trans (factors_at1 m ρ c)

theorem bias3 (c : Dev nD) : V3 m ρ c main_v13 = asRow (m ((c : Thread nD τ).loc main_arg4)) :=
  (kept m ρ c main_v13 (by decide) (by decide) (by decide) (by decide) (by decide) (by decide)).2.1.trans (bias1_at1 m ρ c)

theorem weight3 (c : Dev nD) : V3 m ρ c main_arg5 = m ((c : Thread nD τ).loc main_arg5) :=
  (kept m ρ c main_arg5 (by decide) (by decide) (by decide) (by decide) (by decide) (by decide)).2.1.trans
    (launch_at1 m ρ c main_arg5 (by decide))

/-- The second region's output: the first convolution's hidden layer times `W₂ᵀ`. -/
theorem out1 (c : Dev nD) :
    W4 m ρ c (Proc.devRef .tc main_v33)
      = mulT (conv (m ((c : Thread nD τ).loc main_arg1)) (m ((c : Thread nD τ).loc main_arg2))
          (mulT (n := 500000) (m ((c : Thread nD τ).loc main_arg0)) (m ((c : Thread nD τ).loc main_arg3)))
          (m ((c : Thread nD τ).loc main_arg4))) (m ((c : Thread nD τ).loc main_arg5)) := by
  refine (W4_arr m ρ c 4).trans ?_
  rw [Region1.array (V3 m ρ) c]
  dsimp only [Region1.result]
  rw [messages1, factors3, bias3, weight3, hidden_eq]
  rfl

/-! ## The third region -/

/-- The node matrix the second region leaves, named. -/
abbrev stage2 (c : Dev nD) : Mat 500000 :=
  mulT (conv (m ((c : Thread nD τ).loc main_arg1)) (m ((c : Thread nD τ).loc main_arg2))
    (mulT (n := 500000) (m ((c : Thread nD τ).loc main_arg0)) (m ((c : Thread nD τ).loc main_arg3)))
    (m ((c : Thread nD τ).loc main_arg4))) (m ((c : Thread nD τ).loc main_arg5))

/-- The messages the third region finds: one pass over the second region's output. -/
theorem messages2 (c : Dev nD) :
    V5 m ρ c main_v46
      = aggregate (sources (m ((c : Thread nD τ).loc main_arg1))) (targets (m ((c : Thread nD τ).loc main_arg1)))
          (m ((c : Thread nD τ).loc main_arg2)) (stage2 m c) := by
  show StableHlo.after hostOps2 (W4 m ρ c) (Proc.devRef .tc main_v46) = _
  dsimp only [hostOps2]
  after_results_simp
  rw [out1 m ρ c,
    (kept m ρ c main_v1 (by decide) (by decide) (by decide) (by decide) (by decide) (by decide)).2.2.1,
    (kept m ρ c main_v3 (by decide) (by decide) (by decide) (by decide) (by decide) (by decide)).2.2.1,
    (kept m ρ c main_arg2 (by decide) (by decide) (by decide) (by decide) (by decide) (by decide)).2.2.1,
    sources_at1, targets_at1, launch_at1 m ρ c main_arg2 (by decide)]
  rfl

theorem factors5 (c : Dev nD) : V5 m ρ c main_v12 = factors (targets (m ((c : Thread nD τ).loc main_arg1))) :=
  (kept m ρ c main_v12 (by decide) (by decide) (by decide) (by decide) (by decide) (by decide)).2.2.2.1.trans (factors_at1 m ρ c)

theorem bias5 (c : Dev nD) : V5 m ρ c main_v14 = asRow (m ((c : Thread nD τ).loc main_arg6)) :=
  (kept m ρ c main_v14 (by decide) (by decide) (by decide) (by decide) (by decide) (by decide)).2.2.2.1.trans (bias2_at1 m ρ c)

theorem weight5 (c : Dev nD) : V5 m ρ c main_arg7 = m ((c : Thread nD τ).loc main_arg7) :=
  (kept m ρ c main_arg7 (by decide) (by decide) (by decide) (by decide) (by decide) (by decide)).2.2.2.1.trans
    (launch_at1 m ρ c main_arg7 (by decide))

/-- The third region's output: the second convolution's hidden layer times `W₃ᵀ`. -/
theorem out2 (c : Dev nD) :
    W6 m ρ c (Proc.devRef .tc main_v47)
      = mulT (conv (m ((c : Thread nD τ).loc main_arg1)) (m ((c : Thread nD τ).loc main_arg2)) (stage2 m c)
          (m ((c : Thread nD τ).loc main_arg6))) (m ((c : Thread nD τ).loc main_arg7)) := by
  refine (W6_arr m ρ c 4).trans ?_
  rw [Region2.array (V5 m ρ) c]
  dsimp only [Region2.result]
  rw [messages2, factors5, bias5, weight5, hidden_eq]
  rfl

/-! ## The last region -/

/-- The node matrix the third region leaves, named. -/
abbrev stage3 (c : Dev nD) : Mat 500000 :=
  mulT (conv (m ((c : Thread nD τ).loc main_arg1)) (m ((c : Thread nD τ).loc main_arg2)) (stage2 m c)
    (m ((c : Thread nD τ).loc main_arg6))) (m ((c : Thread nD τ).loc main_arg7))

/-- The messages the last region finds: one pass over the third region's output. -/
theorem messages3 (c : Dev nD) :
    V7 m ρ c main_v60
      = aggregate (sources (m ((c : Thread nD τ).loc main_arg1))) (targets (m ((c : Thread nD τ).loc main_arg1)))
          (m ((c : Thread nD τ).loc main_arg2)) (stage3 m c) := by
  show StableHlo.after hostOps3 (W6 m ρ c) (Proc.devRef .tc main_v60) = _
  dsimp only [hostOps3]
  after_results_simp
  rw [out2 m ρ c,
    (kept m ρ c main_v1 (by decide) (by decide) (by decide) (by decide) (by decide) (by decide)).2.2.2.2.1,
    (kept m ρ c main_v3 (by decide) (by decide) (by decide) (by decide) (by decide) (by decide)).2.2.2.2.1,
    (kept m ρ c main_arg2 (by decide) (by decide) (by decide) (by decide) (by decide) (by decide)).2.2.2.2.1,
    sources_at1, targets_at1, launch_at1 m ρ c main_arg2 (by decide)]
  rfl

theorem factors7 (c : Dev nD) : V7 m ρ c main_v12 = factors (targets (m ((c : Thread nD τ).loc main_arg1))) :=
  (kept m ρ c main_v12 (by decide) (by decide) (by decide) (by decide) (by decide) (by decide)).2.2.2.2.2.trans (factors_at1 m ρ c)

theorem bias7 (c : Dev nD) : V7 m ρ c main_v15 = asRow (m ((c : Thread nD τ).loc main_arg8)) :=
  (kept m ρ c main_v15 (by decide) (by decide) (by decide) (by decide) (by decide) (by decide)).2.2.2.2.2.trans (bias3_at1 m ρ c)

theorem fcWeight1_7 (c : Dev nD) : V7 m ρ c main_arg9 = m ((c : Thread nD τ).loc main_arg9) :=
  (kept m ρ c main_arg9 (by decide) (by decide) (by decide) (by decide) (by decide) (by decide)).2.2.2.2.2.trans
    (launch_at1 m ρ c main_arg9 (by decide))

theorem fcBias1_7 (c : Dev nD) : V7 m ρ c main_v16 = asRow (m ((c : Thread nD τ).loc main_arg10)) :=
  (kept m ρ c main_v16 (by decide) (by decide) (by decide) (by decide) (by decide) (by decide)).2.2.2.2.2.trans (fcBias1_at1 m ρ c)

theorem fcWeight2_7 (c : Dev nD) : V7 m ρ c main_arg11 = m ((c : Thread nD τ).loc main_arg11) :=
  (kept m ρ c main_arg11 (by decide) (by decide) (by decide) (by decide) (by decide) (by decide)).2.2.2.2.2.trans
    (launch_at1 m ρ c main_arg11 (by decide))

theorem fcBias2_7 (c : Dev nD) : V7 m ρ c main_v17 = asRow (m ((c : Thread nD τ).loc main_arg12)) :=
  (kept m ρ c main_v17 (by decide) (by decide) (by decide) (by decide) (by decide) (by decide)).2.2.2.2.2.trans (fcBias2_at1 m ρ c)

theorem fcWeight3_7 (c : Dev nD) : V7 m ρ c main_arg13 = m ((c : Thread nD τ).loc main_arg13) :=
  (kept m ρ c main_arg13 (by decide) (by decide) (by decide) (by decide) (by decide) (by decide)).2.2.2.2.2.trans
    (launch_at1 m ρ c main_arg13 (by decide))

theorem fcBias3_7 (c : Dev nD) : V7 m ρ c main_v18 = asRow (m ((c : Thread nD τ).loc main_arg14)) :=
  (kept m ρ c main_v18 (by decide) (by decide) (by decide) (by decide) (by decide) (by decide)).2.2.2.2.2.trans (fcBias3_at1 m ρ c)

/-- THE RESULT BUFFER AT THE LAST BOUNDARY: the network of the launch arguments. -/
theorem result (c : Dev nD) :
    W8 m ρ c (Proc.devRef .tc main_v61)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  refine (W8_arr m ρ c 9).trans ?_
  rw [Region3.array (V7 m ρ) c]
  dsimp only [Region3.result]
  rw [messages3, factors7, bias7, fcWeight1_7, fcBias1_7, fcWeight2_7, fcBias2_7, fcWeight3_7, fcBias3_7, hidden_eq]
  simp only [dense_eq]
  rfl

end Cert.KernelIdeal.KernelValue

end
-- ==== Proof.KernelRun.lean ====
/-
  The kernel program's run, with its result named.

  Every weakly fair execution of the program terminates without a fault in a state whose unscoped buffers hold the
  last boundary's contents. Read at the result buffer, those contents are the network of the launch arguments
  (`KernelValue.result`); read at the argument buffers, they are the launch arguments.
-/
import proofs.«140499_j53781580480525_1_alg».proof.Proof.KernelValue

set_option maxRecDepth 16384

noncomputable section

namespace Cert.KernelIdeal.KernelRun

open Cert.KernelIdeal Cert.KernelIdeal.Gen Cert.KernelIdeal.Network
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every unscoped buffer ends at the last boundary's contents. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The program runs; its result buffer ends at the network of the launch arguments, and the arguments as launched. -/
theorem run : θ_run defs (onTc (τ := τ) (main (F := Ideal))) ⟨m, fun _ => 0, ρ⟩ (fun r => ∀ c : Dev nD,
      r.2.mem ((c.tc : Thread nD τ).loc main_v61)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v61 (by decide))).trans (KernelValue.result m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c)⟩)
    (run_boundary m ρ)

end Cert.KernelIdeal.KernelRun

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.RefStages.lean ====
/-
  The reference program's stages as the layers of `Network`.

  The reference computes every layer on the host, over the whole arrays. Read at an index: its matrix product against
  a transposed weight is `mulT`; its mean divides each entry by the count raised to at least one, spread first into a
  column and then over the columns; its biases are spread first into a row and then over the rows; its rectifier is
  the maximum with a splat of zero. Its message pass and its edge count are the very host operations `Glue` names.
  Each lemma is stated once over variable operands and then read off for each of the reference's stages, whose terms
  are those operations of earlier stages by definition.
-/
import proofs.«140499_j53781580480525_1_alg».proof.Proof.Gen.ReferenceIdeal.Read
import proofs.«140499_j53781580480525_1_alg».proof.Proof.Network
import proofs.«140499_j53781580480525_1_alg».proof.Proof.LibBroadcastIn

set_option maxRecDepth 16384

noncomputable section

namespace Cert.ReferenceIdeal.RefValue

open Cert.ReferenceIdeal Cert.ReferenceIdeal.Gen Cert.ReferenceIdeal.Read Cert.Gcn Cert.KernelIdeal.Glue Cert.KernelIdeal.Network
open Idealize.ShloMosaic Idealize.ShloMosaic.ValueIdx
open scoped BigOperators

/-! ## The host's spellings, over variable operands -/

/-- The host's product of a node matrix with a transposed weight is `mulT`. -/
theorem host_mulT (X : (⟨S500000x5, .f32⟩ : BufTy).Contents (Elt Ideal)) (W : (⟨S5x5, .f32⟩ : BufTy).Contents (Elt Ideal)) :
    val_main_v5 (F := Ideal) X W = mulT (n := 500000) X W := by
  funext i
  obtain ⟨r, o, rfl⟩ : ∃ (r : Fin 500000) (o : Fin 5), i = ix2 r o := ⟨i 0, i 1, eq_ix2 i⟩
  rw [val_main_v5_apply]
  show _ = ∑ k : Fin 5, X (ix2 r k) * W (ix2 o k)
  refine Finset.sum_congr rfl fun k _ => ?_
  rw [val_main_v4_apply]
  have e1 : lidx_main_v5 (ix2 r o) k = ix2 r k :=
    funext fun a => Fin.ext (by match a with | ⟨0, _⟩ => rfl | ⟨1, _⟩ => rfl)
  have e2 : idx_main_v4 (ridx_main_v5 (ix2 r o) k) = ix2 o k :=
    funext fun a => Fin.ext (by match a with | ⟨0, _⟩ => rfl | ⟨1, _⟩ => rfl)
  rw [e1, e2]

/-- The host's rectifier: the maximum with a splat of zero. -/
theorem host_relu (X : (⟨S500000x5, .f32⟩ : BufTy).Contents (Elt Ideal)) :
    maximumf (F := Ideal) (φ := .f32) X (broadcastInDim S500000x5 ![] bcast_S_S500000x5 (constant (F := Ideal) S_ .f32 0x00000000#32))
      = relu (n := 500000) X := by
  funext i
  rw [maximumf_apply, Cert.LibBroadcastIn.scalar_apply, constant_apply]
  rfl

/-- The host's bias: the vector spread into a row, the row spread over the rows. -/
theorem host_bias (b : (⟨S5, .f32⟩ : BufTy).Contents (Elt Ideal)) (r : Fin 500000) (k : Fin 5) :
    broadcastInDim S500000x5 ![0, 1] bcast_S1x5_S500000x5_0_1 (broadcastInDim S1x5 ![1] bcast_S5_S1x5_1 b) (ix2 r k) = b (ix1 k) := by
  rw [Cert.LibBroadcastIn.tile_apply, Cert.LibBroadcastIn.row1_apply]

/-- The host's dense layer. -/
theorem host_dense (X : (⟨S500000x5, .f32⟩ : BufTy).Contents (Elt Ideal)) (W : (⟨S5x5, .f32⟩ : BufTy).Contents (Elt Ideal))
    (b : (⟨S5, .f32⟩ : BufTy).Contents (Elt Ideal)) :
    addf (F := Ideal) (φ := .f32) (val_main_v5 (F := Ideal) X W)
        (broadcastInDim S500000x5 ![0, 1] bcast_S1x5_S500000x5_0_1 (broadcastInDim S1x5 ![1] bcast_S5_S1x5_1 b))
      = dense X W b := by
  funext i
  obtain ⟨r, k, rfl⟩ : ∃ (r : Fin 500000) (k : Fin 5), i = ix2 r k := ⟨i 0, i 1, eq_ix2 i⟩
  rw [addf_apply, host_bias, host_mulT]
  rfl

/-- The host's mean over the arriving edges, bias and rectifier. -/
theorem host_meanRelu (A : (⟨S500000x5, .f32⟩ : BufTy).Contents (Elt Ideal)) (cnt : (⟨S500000, .f32⟩ : BufTy).Contents (Elt Ideal))
    (b : (⟨S5, .f32⟩ : BufTy).Contents (Elt Ideal)) :
    maximumf (F := Ideal) (φ := .f32)
        (addf (F := Ideal) (φ := .f32)
          (Host.divf (F := Ideal) (φ := .f32) A (broadcastInDim S500000x5 ![0, 1] bcast_S500000x1_S500000x5_0_1
            (broadcastInDim S500000x1 ![0] bcast_S500000_S500000x1_0
              (maximumf (F := Ideal) (φ := .f32) cnt (broadcastInDim S500000 ![] bcast_S_S500000 (constant (F := Ideal) S_ .f32 0x3F800000#32))))))
          (broadcastInDim S500000x5 ![0, 1] bcast_S1x5_S500000x5_0_1 (broadcastInDim S1x5 ![1] bcast_S5_S1x5_1 b)))
        (broadcastInDim S500000x5 ![] bcast_S_S500000x5 (constant (F := Ideal) S_ .f32 0x00000000#32))
      = meanRelu A cnt b := by
  funext i
  obtain ⟨r, k, rfl⟩ : ∃ (r : Fin 500000) (k : Fin 5), i = ix2 r k := ⟨i 0, i 1, eq_ix2 i⟩
  rw [maximumf_apply, addf_apply, hostDivf_apply, host_bias, Cert.LibBroadcastIn.rows_apply, Cert.LibBroadcastIn.col_apply,
    maximumf_apply, Cert.LibBroadcastIn.scalar_apply, Cert.LibBroadcastIn.scalar_apply, constant_apply, constant_apply]
  rfl

/-! ## The reference's message passes and edge counts are `Glue`'s -/

variable (x0 : (⟨S500000x5, .f32⟩ : BufTy).Contents (Elt Ideal)) (x1 : (⟨S2x16000000, .i32⟩ : BufTy).Contents (Elt Ideal))
  (x2 : (⟨S16000000, .f32⟩ : BufTy).Contents (Elt Ideal)) (x3 : (⟨S5x5, .f32⟩ : BufTy).Contents (Elt Ideal))
  (x4 : (⟨S5, .f32⟩ : BufTy).Contents (Elt Ideal)) (x5 : (⟨S5x5, .f32⟩ : BufTy).Contents (Elt Ideal))
  (x6 : (⟨S5, .f32⟩ : BufTy).Contents (Elt Ideal)) (x7 : (⟨S5x5, .f32⟩ : BufTy).Contents (Elt Ideal))
  (x8 : (⟨S5, .f32⟩ : BufTy).Contents (Elt Ideal)) (x9 : (⟨S5x5, .f32⟩ : BufTy).Contents (Elt Ideal))
  (x10 : (⟨S5, .f32⟩ : BufTy).Contents (Elt Ideal)) (x11 : (⟨S5x5, .f32⟩ : BufTy).Contents (Elt Ideal))
  (x12 : (⟨S5, .f32⟩ : BufTy).Contents (Elt Ideal)) (x13 : (⟨S5x5, .f32⟩ : BufTy).Contents (Elt Ideal))
  (x14 : (⟨S5, .f32⟩ : BufTy).Contents (Elt Ideal))

theorem count1 : val_main_v22 (F := Ideal) x1 = counts (targets x1) := rfl
theorem count2 : val_main_v50 (F := Ideal) x1 = counts (targets x1) := rfl
theorem count3 : val_main_v78 (F := Ideal) x1 = counts (targets x1) := rfl

theorem pass1 : val_main_v18 (F := Ideal) x0 x1 x2 x3 = aggregate (sources x1) (targets x1) x2 (val_main_v5 x0 x3) := rfl
theorem pass2 : val_main_v46 (F := Ideal) x0 x1 x2 x3 x4 x5
    = aggregate (sources x1) (targets x1) x2 (val_main_v33 x0 x1 x2 x3 x4 x5) := rfl
theorem pass3 : val_main_v74 (F := Ideal) x0 x1 x2 x3 x4 x5 x6 x7
    = aggregate (sources x1) (targets x1) x2 (val_main_v61 x0 x1 x2 x3 x4 x5 x6 x7) := rfl

/-! ## The reference's stages -/

/-- The first convolution's hidden layer. -/
theorem hidden1 : val_main_v31 (F := Ideal) x0 x1 x2 x3 x4 = conv x1 x2 (mulT (n := 500000) x0 x3) x4 := by
  refine (host_meanRelu (val_main_v18 x0 x1 x2 x3) (val_main_v22 x1) x4).trans ?_
  rw [pass1, count1, host_mulT]
  rfl

/-- The second layer's transformed node matrix. -/
theorem linear2 : val_main_v33 (F := Ideal) x0 x1 x2 x3 x4 x5 = mulT (conv x1 x2 (mulT (n := 500000) x0 x3) x4) x5 := by
  refine (host_mulT (val_main_v31 x0 x1 x2 x3 x4) x5).trans ?_
  rw [hidden1]

/-- The second convolution's hidden layer. -/
theorem hidden2 : val_main_v59 (F := Ideal) x0 x1 x2 x3 x4 x5 x6
    = conv x1 x2 (mulT (conv x1 x2 (mulT (n := 500000) x0 x3) x4) x5) x6 := by
  refine (host_meanRelu (val_main_v46 x0 x1 x2 x3 x4 x5) (val_main_v50 x1) x6).trans ?_
  rw [pass2, count2, linear2]
  rfl

/-- The third layer's transformed node matrix. -/
theorem linear3 : val_main_v61 (F := Ideal) x0 x1 x2 x3 x4 x5 x6 x7
    = mulT (conv x1 x2 (mulT (conv x1 x2 (mulT (n := 500000) x0 x3) x4) x5) x6) x7 := by
  refine (host_mulT (val_main_v59 x0 x1 x2 x3 x4 x5 x6) x7).trans ?_
  rw [hidden2]

/-- The third convolution's hidden layer. -/
theorem hidden3 : val_main_v87 (F := Ideal) x0 x1 x2 x3 x4 x5 x6 x7 x8
    = conv x1 x2 (mulT (conv x1 x2 (mulT (conv x1 x2 (mulT (n := 500000) x0 x3) x4) x5) x6) x7) x8 := by
  refine (host_meanRelu (val_main_v74 x0 x1 x2 x3 x4 x5 x6 x7) (val_main_v78 x1) x8).trans ?_
  rw [pass3, count3, linear3]
  rfl

/-- The first dense layer, rectified. -/
theorem dense1 : val_main_v93 (F := Ideal) x0 x1 x2 x3 x4 x5 x6 x7 x8 x9 x10
    = relu (dense (val_main_v87 x0 x1 x2 x3 x4 x5 x6 x7 x8) x9 x10) :=
  (host_relu (val_main_v92 x0 x1 x2 x3 x4 x5 x6 x7 x8 x9 x10)).trans
    (congrArg relu (host_dense (val_main_v87 x0 x1 x2 x3 x4 x5 x6 x7 x8) x9 x10))

/-- The second dense layer, rectified. -/
theorem dense2 : val_main_v99 (F := Ideal) x0 x1 x2 x3 x4 x5 x6 x7 x8 x9 x10 x11 x12
    = relu (dense (val_main_v93 x0 x1 x2 x3 x4 x5 x6 x7 x8 x9 x10) x11 x12) :=
  (host_relu (val_main_v98 x0 x1 x2 x3 x4 x5 x6 x7 x8 x9 x10 x11 x12)).trans
    (congrArg relu (host_dense (val_main_v93 x0 x1 x2 x3 x4 x5 x6 x7 x8 x9 x10) x11 x12))

/-- The third dense layer. -/
theorem dense3 : val_main_v104 (F := Ideal) x0 x1 x2 x3 x4 x5 x6 x7 x8 x9 x10 x11 x12 x13 x14
    = dense (val_main_v99 x0 x1 x2 x3 x4 x5 x6 x7 x8 x9 x10 x11 x12) x13 x14 :=
  host_dense (val_main_v99 x0 x1 x2 x3 x4 x5 x6 x7 x8 x9 x10 x11 x12) x13 x14

/-- THE REFERENCE'S RESULT: the network of its arguments. -/
theorem value : val_main_v104 (F := Ideal) x0 x1 x2 x3 x4 x5 x6 x7 x8 x9 x10 x11 x12 x13 x14
    = network x0 x1 x2 x3 x4 x5 x6 x7 x8 x9 x10 x11 x12 x13 x14 := by
  rw [dense3, dense2, dense1, hidden3]
  rfl

end Cert.ReferenceIdeal.RefValue

end
-- ==== Proof.lean ====
/-
  A three-layer graph convolution network followed by three dense layers, over 500000 nodes of five features and
  16000000 weighted edges: the kernel program against its plain reference.

  Both programs compute, for each convolution, `X · Wᵀ`, one message pass over the edges (each edge adds its source
  node's row, scaled by the edge's weight, into its target node's row), the mean over the arriving edges, a bias and
  the rectifier; then three dense layers, the first two rectified. The kernel program runs the dense steps in four
  grid kernels that stream the node matrix through in blocks of 5000 rows, and the message passes on the host between
  them; it takes the mean as a product with a column of reciprocals `1 / max(count, 1)` formed once on the host, where
  the reference divides by `max(count, 1)`.

  At the extended reals the two agree for every input. The dense steps are row-wise, so a kernel's blocks assemble to
  the same function of the whole arrays (`Region0` … `Region3` over `Layers` and `Body`); the host steps between the
  kernels are the reference's own (`Glue`, kept whole); the buffers the first host stretch prepares reach every later
  kernel unchanged (`Boundaries`); and `x · (1 / max(c, 1)) = x / max(c, 1)` for every extended real `x` and `c`
  because `max(c, 1)` is never zero (`Reciprocal`). So the kernel program's result buffer ends at `Network.network` of
  its arguments (`KernelValue`, `KernelRun`), and the reference's at the same function of its own (`RefStages`).
  The idealization rewrote nothing, so there is nothing to preserve; the finiteness of the inputs is never used.
-/
import proofs.«140499_j53781580480525_1_alg».proof.Defs
import proofs.«140499_j53781580480525_1_alg».proof.Proof.Gen.Kernel
import proofs.«140499_j53781580480525_1_alg».proof.Proof.Gen.Kernel.Frame
import proofs.«140499_j53781580480525_1_alg».proof.Proof.Gen.KernelIdeal
import proofs.«140499_j53781580480525_1_alg».proof.Proof.Gen.KernelIdeal.Frame
import proofs.«140499_j53781580480525_1_alg».proof.Proof.Gen.ReferenceIdeal
import proofs.«140499_j53781580480525_1_alg».proof.Proof.Gen.ReferenceIdeal.Run
import proofs.«140499_j53781580480525_1_alg».proof.Proof.Gen.Pre_finite_inputs
import proofs.«140499_j53781580480525_1_alg».proof.Proof.KernelRun
import proofs.«140499_j53781580480525_1_alg».proof.Proof.RefStages
import Idealize.ShloMosaic.Adequacy
import Idealize.ShloMosaic.Init

noncomputable section

namespace Cert.Proof

open Idealize.ShloMosaic Idealize.SL.Sem

/-- The kernel program as printed runs, and its arguments end unchanged. -/
theorem frame_kernel : Cert.frame_Kernel := fun m ρ _ => Cert.Kernel.Gen.frame m ρ

/-- The idealized kernel program runs, and its arguments end unchanged. -/
theorem frame_kernelIdeal : Cert.frame_KernelIdeal := fun m ρ _ => Cert.KernelIdeal.Gen.frame m ρ

/-- The idealized reference runs, and its arguments end unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v104_eq, Cert.ReferenceIdeal.RefValue.value,
    e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
